-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x12 : Shape := ⟨2, ![65536, 12]⟩
abbrev S1024x1 : Shape := ⟨2, ![1024, 1]⟩
abbrev S1024 : Shape := ⟨1, ![1024]⟩
abbrev S10x1024 : Shape := ⟨2, ![10, 1024]⟩
abbrev S1024x1024 : Shape := ⟨2, ![1024, 1024]⟩
abbrev S2x1024 : Shape := ⟨2, ![2, 1024]⟩
abbrev S2 : Shape := ⟨1, ![2]⟩
abbrev S_ : Shape := ⟨0, ![]⟩

class Facts : Prop where
  bcast_S_S65536x12 : S_.BroadcastsInDim S65536x12 (![] : Fin 0 → Fin S65536x12.rank)
  reducesTo_S65536x12_S_d0_1 : S65536x12.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_
  bcast_S_S10x1024 : S_.BroadcastsInDim S10x1024 (![] : Fin 0 → Fin S10x1024.rank)
  reducesTo_S10x1024_S_d0_1 : S10x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x1024 .f32) (main_arg8 : FVec F S2 .f32) (main_v33 : IVec S_ 1) : IVec S_ 1 :=
  let main_v34 : FVec F S2x1024 .f32 := Host.absf main_arg7
  let main_cst_12 : FVec F S_ .f32 := constant S_ .f32 0x7F800000#32
  let main_v35 : FVec F S2x1024 .f32 := broadcastInDim S2x1024 ![] bcast_S_S2x1024 main_cst_12
  let main_v36 : IVec S2x1024 1 := cmpf .olt main_v34 main_v35
  let main_c_13 : IVec S_ 1 := constantI S_ 1 1#1
  let main_v37 : IVec S_ 1 := (fun x v => Host.reduce IntOp.andi x v reducesTo_S2x1024_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S10x1024 .f32) (main_arg5 : FVec F S1024x1024 .f32) (main_arg6 : FVec F S1024 .f32) (main_arg7 : FVec F S2x1024 .f32) (main_arg8 : FVec F S2 .f32) (main_v13 : IVec S_ 1) (main_v16 : IVec S10x1024 1) : IVec S_ 1 :=
  let main_c_5 : IVec S_ 1 := constantI S_ 1 1#1
  let main_v17 : IVec S_ 1 := (fun x v => Host.reduce IntOp.andi x v reducesTo_S10x1024_S_d0_1 h_S_) main_v16 main_c_5
  let main_v18 : IVec S_ 1 := andi main_v13 main_v17
  let main_v19 : FVec F S10x1024 .f32 := Host.absf main_arg4
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x12 .f32) (main_arg1 : FVec F S1024x1 .f32) (main_arg2 : FVec F S1024 .f32) (main_arg3 : FVec F S10x1024 .f32) (main_arg4 : FVec F S10x1024 .f32) (main_arg5 : FVec F S1024x1024 .f32) (main_arg6 : FVec F S1024 .f32) (main_arg7 : FVec F S2x1024 .f32) (main_arg8 : FVec F S2 .f32) : IVec S_ 1 :=
  let main_v0 : FVec F S65536x12 .f32 := Host.absf main_arg0
  let main_cst : FVec F S_ .f32 := constant S_ .f32 0x7F800000#32
  let main_v1 : FVec F S65536x12 .f32 := broadcastInDim S65536x12 ![] bcast_S_S65536x12 main_cst
  let main_v2 : IVec S65536x12 1 := cmpf .olt main_v0 main_v1
  let main_c : IVec S_ 1 := constantI S_ 1 1#1
  let main_v3 : IVec S_ 1 := (fun x v => Host.reduce IntOp.andi x v reducesTo_S65536x12_S_d0_1 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S10x1024 .f32 := Host.absf main_arg3
  let main_cst_4 : FVec F S_ .f32 := constant S_ .f32 0x7F800000#32
  let main_v15 : FVec F S10x1024 .f32 := broadcastInDim S10x1024 ![] bcast_S_S10x1024 main_cst_4
  let main_v16 : IVec S10x1024 1 := cmpf .olt main_v14 main_v15
  fn_part1 (F := F) main_arg4 main_arg5 main_arg6 main_arg7 main_arg8 main_v13 main_v16
-- ==== Kernel.lean ====
abbrev S65536x12 : Shape := ⟨2, ![65536, 12]⟩
abbrev S1024x1 : Shape := ⟨2, ![1024, 1]⟩
abbrev S1024 : Shape := ⟨1, ![1024]⟩
abbrev S10x1024 : Shape := ⟨2, ![10, 1024]⟩
abbrev S1024x1024 : Shape := ⟨2, ![1024, 1024]⟩
abbrev S2x1024 : Shape := ⟨2, ![2, 1024]⟩
abbrev S2 : Shape := ⟨1, ![2]⟩
abbrev S1x1024 : Shape := ⟨2, ![1, 1024]⟩
abbrev S1x2 : Shape := ⟨2, ![1, 2]⟩
abbrev S21x1024 : Shape := ⟨2, ![21, 1024]⟩
abbrev S1024x2 : Shape := ⟨2, ![1024, 2]⟩
abbrev S65536x2 : Shape := ⟨2, ![65536, 2]⟩
abbrev S1024x12 : Shape := ⟨2, ![1024, 12]⟩
abbrev S1024x10 : Shape := ⟨2, ![1024, 10]⟩
abbrev S1024x21 : Shape := ⟨2, ![1024, 21]⟩

abbrev nBuf : Space → Nat
  | .hbm => 20
  | .vmem => 10
  | .smem => 0
  | _ => 0

abbrev bufTy : (tb : Table) → Fin (tcTables nBuf tb) → BufTy
  | .hbm, ⟨0, _⟩ => ⟨S65536x12, .f32⟩
  | .hbm, ⟨1, _⟩ => ⟨S1024x1, .f32⟩
  | .hbm, ⟨2, _⟩ => ⟨S1024, .f32⟩
  | .hbm, ⟨3, _⟩ => ⟨S10x1024, .f32⟩
  | .hbm, ⟨4, _⟩ => ⟨S10x1024, .f32⟩
  | .hbm, ⟨5, _⟩ => ⟨S1024x1024, .f32⟩
  | .hbm, ⟨6, _⟩ => ⟨S1024, .f32⟩
  | .hbm, ⟨7, _⟩ => ⟨S2x1024, .f32⟩
  | .hbm, ⟨8, _⟩ => ⟨S2, .f32⟩
  | .hbm, ⟨9, _⟩ => ⟨S1x1024, .f32⟩
  | .hbm, ⟨10, _⟩ => ⟨S1x1024, .f32⟩
  | .hbm, ⟨11, _⟩ => ⟨S1x2, .f32⟩
  | .hbm, ⟨12, _⟩ => ⟨S1x1024, .f32⟩
  | .hbm, ⟨13, _⟩ => ⟨S21x1024, .f32⟩
  | .hbm, ⟨14, _⟩ => ⟨S21x1024, .bf16⟩
  | .hbm, ⟨15, _⟩ => ⟨S1024x1024, .f32⟩
  | .hbm, ⟨16, _⟩ => ⟨S1024x1024, .bf16⟩
  | .hbm, ⟨17, _⟩ => ⟨S1024x2, .f32⟩
  | .hbm, ⟨18, _⟩ => ⟨S1024x2, .bf16⟩
  | .hbm, ⟨19, _⟩ => ⟨S65536x2, .f32⟩
  | .local _ .vmem, ⟨0, _⟩ => ⟨S1024x12, .f32⟩
  | .local _ .vmem, ⟨1, _⟩ => ⟨S1024x12, .f32⟩
  | .local _ .vmem, ⟨2, _⟩ => ⟨S21x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2, .bf16⟩
  | .local _ .vmem, ⟨7, _⟩ => ⟨S1x2, .f32⟩
  | .local _ .vmem, ⟨8, _⟩ => ⟨S1024x2, .f32⟩
  | .local _ .vmem, ⟨9, _⟩ => ⟨S1024x2, .f32⟩
  | _, _ => ⟨S65536x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S21x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1024_S1x1024 : S1024.ShapeCasts S1x1024
  shapeCasts_S2_S1x2 : S2.ShapeCasts S1x2
  transposes_S1024x1_S1x1024_1_0 : S1024x1.Transposes [1, 0] S1x1024
  concatenates_S10x1024_S10x1024_S1x1024_S21x1024_d0 : Shape.Concatenates [S10x1024, S10x1024, S1x1024] S21x1024 0
  bitsLt_bf16_f32 : FTy.bits .bf16 < FTy.bits .f32
  transposes_S1024x1024_S1024x1024_1_0 : S1024x1024.Transposes [1, 0] S1024x1024
  transposes_S2x1024_S1024x2_1_0 : S2x1024.Transposes [1, 0] S1024x2
  inb_S1024x12_S1024x10_0_0 : ∀ a, (![0, 0] : Fin 2 → Nat) a + S1024x10.size a ≤ S1024x12.size a
  h_S1024x10 : 0 < S1024x10.numel
  inb_S1024x12_S1024x1_0_10 : ∀ a, (![0, 10] : Fin 2 → Nat) a + S1024x1.size a ≤ S1024x12.size a
  h_S1024x1 : 0 < S1024x1.numel
  inb_S1024x12_S1024x1_0_11 : ∀ a, (![0, 11] : Fin 2 → Nat) a + S1024x1.size a ≤ S1024x12.size a
  broadcasts_S1024x1_S1024x10 : S1024x1.Broadcasts S1024x10
  concatenates_S1024x10_S1024x10_S1024x1_S1024x21_d1 : Shape.Concatenates [S1024x10, S1024x10, S1024x1] S1024x21 1
  inb_S21x1024_S21x1024_0_0 : ∀ a, (![0, 0] : Fin 2 → Nat) a + S21x1024.size a ≤ S21x1024.size a
  h_S21x1024 : 0 < S21x1024.numel
  shapeCasts_S21x1024_S21x1024 : S21x1024.ShapeCasts S21x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  dot_S1024x21_S21x1024_S1024x1024_1_0_0_1_n_n_wf : DotDims.WF S1024x21 S21x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x2_S1024x2_1_0_0_1_n_n_wf : DotDims.WF S1024x1024 S1024x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x12.size a ≤ S65536x12.size a
  hwx0_0 : ∀ i : grid0.Coords, EltTy.bits .f32 = 32 ∨ (Rect.block (s := S65536x12) S1024x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S21x1024.size a ≤ S21x1024.size a
  hwx0_1 : ∀ i : grid0.Coords, EltTy.bits .bf16 = 32 ∨ (Rect.block (s := S21x1024) S21x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2.size a ≤ S1024x2.size a
  hwx0_5 : ∀ i : grid0.Coords, EltTy.bits .bf16 = 32 ∨ (Rect.block (s := S1024x2) S1024x2.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S65536x2.size a
  hwx0_7 : ∀ i : grid0.Coords, EltTy.bits .f32 = 32 ∨ (Rect.block (s := S65536x2) S1024x2.size (cc0_transform_7 i) (hinb0_7 i)).WholeWords (EltTy.packing .f32)

variable [Facts₀]

def dot_S1024x21_S21x1024_S1024x1024_1_0_0_1_n_n : DotDims S1024x21 S21x1024 S1024x1024 where
  lhsContracting := [1]
  rhsContracting := [0]
  lhsNonContracting := [0]
  rhsNonContracting := [1]
  lhsBatch := []
  rhsBatch := []
  wf := dot_S1024x21_S21x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf

abbrev win0_0 : Pipeline.Window sig grid0 :=
  Pipeline.Window.ofSpec (Memref.whole main_arg0) S1024x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S21x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x12 : Shape := ⟨2, ![65536, 12]⟩
abbrev S1024x1 : Shape := ⟨2, ![1024, 1]⟩
abbrev S1024 : Shape := ⟨1, ![1024]⟩
abbrev S10x1024 : Shape := ⟨2, ![10, 1024]⟩
abbrev S1024x1024 : Shape := ⟨2, ![1024, 1024]⟩
abbrev S2x1024 : Shape := ⟨2, ![2, 1024]⟩
abbrev S2 : Shape := ⟨1, ![2]⟩
abbrev S65536x10 : Shape := ⟨2, ![65536, 10]⟩
abbrev S65536x1 : Shape := ⟨2, ![65536, 1]⟩
abbrev S1x1024 : Shape := ⟨2, ![1, 1024]⟩
abbrev S65536x1024 : Shape := ⟨2, ![65536, 1024]⟩
abbrev S_ : Shape := ⟨0, ![]⟩
abbrev S1024x2 : Shape := ⟨2, ![1024, 2]⟩
abbrev S65536x2 : Shape := ⟨2, ![65536, 2]⟩
abbrev S1x2 : Shape := ⟨2, ![1, 2]⟩

abbrev nBuf : Space → Nat
  | .hbm => 42
  | .vmem => 0
  | .smem => 0
  | _ => 0

abbrev bufTy : (tb : Table) → Fin (tcTables nBuf tb) → BufTy
  | .hbm, ⟨0, _⟩ => ⟨S65536x12, .f32⟩
  | .hbm, ⟨1, _⟩ => ⟨S1024x1, .f32⟩
  | .hbm, ⟨2, _⟩ => ⟨S1024, .f32⟩
  | .hbm, ⟨3, _⟩ => ⟨S10x1024, .f32⟩
  | .hbm, ⟨4, _⟩ => ⟨S10x1024, .f32⟩
  | .hbm, ⟨5, _⟩ => ⟨S1024x1024, .f32⟩
  | .hbm, ⟨6, _⟩ => ⟨S1024, .f32⟩
  | .hbm, ⟨7, _⟩ => ⟨S2x1024, .f32⟩
  | .hbm, ⟨8, _⟩ => ⟨S2, .f32⟩
  | .hbm, ⟨9, _⟩ => ⟨S65536x10, .f32⟩
  | .hbm, ⟨10, _⟩ => ⟨S65536x1, .f32⟩
  | .hbm, ⟨11, _⟩ => ⟨S65536x1, .f32⟩
  | .hbm, ⟨12, _⟩ => ⟨S1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S1024x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S1024x2, .f32⟩
  | .hbm, ⟨38, _⟩ => ⟨S65536x2, .f32⟩
  | .hbm, ⟨39, _⟩ => ⟨S1x2, .f32⟩
  | .hbm, ⟨40, _⟩ => ⟨S65536x2, .f32⟩
  | .hbm, ⟨41, _⟩ => ⟨S65536x2, .f32⟩
  | _, _ => ⟨S65536x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S65536x12_S65536x10_0_0 : S65536x12.Slices ![0, 0] S65536x10
  slices_S65536x12_S65536x1_0_10 : S65536x12.Slices ![0, 10] S65536x1
  slices_S65536x12_S65536x1_0_11 : S65536x12.Slices ![0, 11] S65536x1
  shapeCasts_S1024x1_S1024 : S1024x1.ShapeCasts S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S1024x1024_S1024x1024_1_0 : S1024x1024.Transposes [1, 0] S1024x1024
  transposes_S2x1024_S1024x2_1_0 : S2x1024.Transposes [1, 0] S1024x2
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  dot_S65536x10_S10x1024_S65536x1024_1_0_0_1_n_n_wf : DotDims.WF S65536x10 S10x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x2_S65536x2_1_0_0_1_n_n_wf : DotDims.WF S65536x1024 S1024x2 S65536x2 [1] [0] [0] [1] [] []

variable [Facts₀]

def dot_S65536x10_S10x1024_S65536x1024_1_0_0_1_n_n : DotDims S65536x10 S10x1024 S65536x1024 where
  lhsContracting := [1]
  rhsContracting := [0]
  lhsNonContracting := [0]
  rhsNonContracting := [1]
  lhsBatch := []
  rhsBatch := []
  wf := dot_S65536x10_S10x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x2_S65536x2_1_0_0_1_n_n : DotDims S65536x1024 S1024x2 S65536x2 where
  lhsContracting := [1]
  rhsContracting := [0]
  lhsNonContracting := [0]
  rhsNonContracting := [1]
  lhsBatch := []
  rhsBatch := []
  wf := dot_S65536x1024_S1024x2_S65536x2_1_0_0_1_n_n_wf

class Facts : Prop extends Facts₀ where

variable [Facts]
-- ==== Proof.KernelFrame.lean ====
/-
  The frame of `Kernel`, at any float instance `F`: every weakly fair execution of @main terminates without a
  fault and leaves the nine argument arrays as launched; and, beyond the frame, the run's post names what the
  result array holds.

  @main is ten host operations (three reshapes of the bias vectors to rows, the transposes of the three weight
  matrices, the concatenation of the two expert tables with the transposed first-layer weight column into one
  21 × 1024 matrix, and the narrowing of the three matrices), then one pipelined region over 64 grid points.
  At point `t` the region hands the body rows `1024 t … 1024 t + 1023` of the input (window 0), the six
  whole weight and bias arrays (windows 1–6, fetched once) and a 1024 × 2 output buffer (window 7) that is
  written back as rows `1024 t … 1024 t + 1023` of the result. The body reads three column ranges of the
  input block and the six resident arrays, and stores ONE value — the payload `k0_pay1` of those nine loads —
  over the whole output buffer. Hence: the body's triple (symbolic execution of its skeleton), the proof data
  (every input buffer at its block of the array as the region finds it, the output buffer at the payload of
  the input blocks), the body obligation at a generic point, and the launch theorem for a pipeline that keeps
  nothing between points.
-/
import proofs.«134065_j20744692040155_2_alg».proof.Proof.Gen.Kernel.Launch
import proofs.«134065_j20744692040155_2_alg».proof.Proof.Gen.Kernel.Skeleton
import proofs.«134065_j20744692040155_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch memory after the ten host operations. -/
abbrev V (c : Dev nD) (b : Ref sig .tc) : Buf (Elt F) ((c : Thread nD τ).loc b) :=
  StableHlo.after hostOps0 (fun b => m (c, b)) b

/-- None of the ten host operations allocates. -/
theorem hostOps0_fresh : (hostOps0 : List (HloOp τ sig (Elt F))).Forall fun op => op.fresh = ∅ := by
  simp only [List.Forall]; repeat' constructor

/-- @main is the ten host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the ten host operations writes is, at the region's entry, as launched. The ten results are
    `main_v0 … main_v9`; an argument is none of them. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.Forall, StableHlo.unary_writes, StableHlo.nary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved since the fetch), for any proof data whose array is the region-entry contents and
    whose body leaves the block in place; the windows tile their arrays and are never idle. One statement per
    input window: the block's index type is the window's own. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The argument arrays after a run of the region's launch theorem: `main_arg0` is window 0's array, an input,
    which the pipeline only reads; the other eight are staged by no window and are as the region found them;
    and the region found all nine as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).1 0).trans ((dats 0 c).arrAt_in 0 rfl _)).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

/-- The three column ranges of the input block the body reads: columns 0–9 (the expert weights), column 10 and
    column 11. -/
abbrev rSel : Rect S1024x12 := Rect.unit (s := S1024x12) ![0, 0] S1024x10.size Facts₀.inb_S1024x12_S1024x10_0_0
abbrev rCol10 : Rect S1024x12 := Rect.unit (s := S1024x12) ![0, 10] S1024x1.size Facts₀.inb_S1024x12_S1024x1_0_10
abbrev rCol11 : Rect S1024x12 := Rect.unit (s := S1024x12) ![0, 11] S1024x1.size Facts₀.inb_S1024x12_S1024x1_0_11
/-- The resident arrays are read whole, and the output buffer is stored whole. -/
abbrev rW12 : Rect S21x1024 := Rect.unit (s := S21x1024) ![0, 0] S21x1024.size Facts₀.inb_S21x1024_S21x1024_0_0
abbrev rRow : Rect S1x1024 := Rect.unit (s := S1x1024) ![0, 0] S1x1024.size Facts₀.inb_S1x1024_S1x1024_0_0
abbrev rSq : Rect S1024x1024 := Rect.unit (s := S1024x1024) ![0, 0] S1024x1024.size Facts₀.inb_S1024x1024_S1024x1024_0_0
abbrev rTwo : Rect S1024x2 := Rect.unit (s := S1024x2) ![0, 0] S1024x2.size Facts₀.inb_S1024x2_S1024x2_0_0
abbrev rB3 : Rect S1x2 := Rect.unit (s := S1x2) ![0, 0] S1x2.size Facts₀.inb_S1x2_S1x2_0_0

/-! ## What the body leaves in the output buffer -/

/-- The output buffer after the body, from the seven input buffers: its one store, the payload of the nine loads. -/
def outBuf (x0 : Vec F S1024x12 .f32) (x1 : Vec F S21x1024 .bf16) (x2 : Vec F S1x1024 .f32) (x3 : Vec F S1024x1024 .bf16) (x4 : Vec F S1x1024 .f32) (x5 : Vec F S1024x2 .bf16) (x6 : Vec F S1x2 .f32) : Vec F S1024x2 .f32 :=
  View.canon [⟨rTwo, k0_pay1 (View.ld x0 rSel) (View.ld x0 rCol10) (View.ld x0 rCol11) (View.ld x1 rW12) (View.ld x2 rRow) (View.ld x3 rSq) (View.ld x4 rRow) (View.ld x5 rTwo) (View.ld x6 rB3)⟩]

/-- The one store covers the buffer. -/
theorem outCover (p0 : Vec F S1024x2 .f32) (y : S1024x2.Idx) :
    ∃ pc ∈ ([⟨rTwo, p0⟩] : List (View.Piece (Elt F) S1024x2 .f32)), y ∈ pc.1.set :=
  View.cover_of_tiled [⟨rTwo, p0⟩] S1024x2.size (by rfl) y

/-! ## The body's triple -/

set_option maxHeartbeats 1000000 in
/-- The body on whole staging memrefs — the seven inputs' at contents `x0 … x6`, the output's at anything — runs to
    its continuation with the inputs' unchanged and the output's at `outBuf` of the inputs'. -/
theorem sound_kernel (c : Dev nD) (E : Set ℕ) (i : grid0.Coords) (a0 : Memref sig .tc .vmem S1024x12 .f32) (h0 : a0.IsWhole) (a1 : Memref sig .tc .vmem S21x1024 .bf16) (h1 : a1.IsWhole) (a2 : Memref sig .tc .vmem S1x1024 .f32) (h2 : a2.IsWhole) (a3 : Memref sig .tc .vmem S1024x1024 .bf16) (h3 : a3.IsWhole) (a4 : Memref sig .tc .vmem S1x1024 .f32) (h4 : a4.IsWhole) (a5 : Memref sig .tc .vmem S1024x2 .bf16) (h5 : a5.IsWhole) (a6 : Memref sig .tc .vmem S1x2 .f32) (h6 : a6.IsWhole) (a7 : Memref sig .tc .vmem S1024x2 .f32) (h7 : a7.IsWhole)
    (x0 : Vec F S1024x12 .f32) (x1 : Vec F S21x1024 .bf16) (x2 : Vec F S1x1024 .f32) (x3 : Vec F S1024x1024 .bf16) (x4 : Vec F S1x1024 .f32) (x5 : Vec F S1024x2 .bf16) (x6 : Vec F S1x2 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (outBuf x0 x1 x2 x3 x4 x5 x6)) -∗ K ⟨⟩))
      ⊢ wp frame (wpE (defs₀ (F := F)) Variants.none c none) E (cc0__moe_kernel i a0 h0 a1 h1 a2 h2 a3 h3 a4 h4 a5 h5 a6 h6 a7 h7) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _)

/-! ## The pipeline's proof data -/

/-- The proof data of the pipeline on core `c`: the arrays as the region finds them; after the body at point `t`
    each input's buffer at its block and the output's at `outBuf` of the input blocks; the invariant that of a
    pipeline keeping nothing between points (the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBuf (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = outBuf (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.KernelIdealFrame.lean ====
/-
  The frame of `KernelIdeal`, at any float instance `F`: every weakly fair execution of @main terminates without a
  fault and leaves the nine argument arrays as launched; and, beyond the frame, the run's post names what the
  result array holds.

  @main is ten host operations (three reshapes of the bias vectors to rows, the transposes of the three weight
  matrices, the concatenation of the two expert tables with the transposed first-layer weight column into one
  21 × 1024 matrix, and the narrowing of the three matrices), then one pipelined region over 64 grid points.
  At point `t` the region hands the body rows `1024 t … 1024 t + 1023` of the input (window 0), the six
  whole weight and bias arrays (windows 1–6, fetched once) and a 1024 × 2 output buffer (window 7) that is
  written back as rows `1024 t … 1024 t + 1023` of the result. The body reads three column ranges of the
  input block and the six resident arrays, and stores ONE value — the payload `k0_pay1` of those nine loads —
  over the whole output buffer. Hence: the body's triple (symbolic execution of its skeleton), the proof data
  (every input buffer at its block of the array as the region finds it, the output buffer at the payload of
  the input blocks), the body obligation at a generic point, and the launch theorem for a pipeline that keeps
  nothing between points.
-/
import proofs.«134065_j20744692040155_2_alg».proof.Proof.Gen.KernelIdeal.Launch
import proofs.«134065_j20744692040155_2_alg».proof.Proof.Gen.KernelIdeal.Skeleton
import proofs.«134065_j20744692040155_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch memory after the ten host operations. -/
abbrev V (c : Dev nD) (b : Ref sig .tc) : Buf (Elt F) ((c : Thread nD τ).loc b) :=
  StableHlo.after hostOps0 (fun b => m (c, b)) b

/-- None of the ten host operations allocates. -/
theorem hostOps0_fresh : (hostOps0 : List (HloOp τ sig (Elt F))).Forall fun op => op.fresh = ∅ := by
  simp only [List.Forall]; repeat' constructor

/-- @main is the ten host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the ten host operations writes is, at the region's entry, as launched. The ten results are
    `main_v0 … main_v9`; an argument is none of them. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.Forall, StableHlo.unary_writes, StableHlo.nary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved since the fetch), for any proof data whose array is the region-entry contents and
    whose body leaves the block in place; the windows tile their arrays and are never idle. One statement per
    input window: the block's index type is the window's own. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The argument arrays after a run of the region's launch theorem: `main_arg0` is window 0's array, an input,
    which the pipeline only reads; the other eight are staged by no window and are as the region found them;
    and the region found all nine as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).1 0).trans ((dats 0 c).arrAt_in 0 rfl _)).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

/-- The three column ranges of the input block the body reads: columns 0–9 (the expert weights), column 10 and
    column 11. -/
abbrev rSel : Rect S1024x12 := Rect.unit (s := S1024x12) ![0, 0] S1024x10.size Facts₀.inb_S1024x12_S1024x10_0_0
abbrev rCol10 : Rect S1024x12 := Rect.unit (s := S1024x12) ![0, 10] S1024x1.size Facts₀.inb_S1024x12_S1024x1_0_10
abbrev rCol11 : Rect S1024x12 := Rect.unit (s := S1024x12) ![0, 11] S1024x1.size Facts₀.inb_S1024x12_S1024x1_0_11
/-- The resident arrays are read whole, and the output buffer is stored whole. -/
abbrev rW12 : Rect S21x1024 := Rect.unit (s := S21x1024) ![0, 0] S21x1024.size Facts₀.inb_S21x1024_S21x1024_0_0
abbrev rRow : Rect S1x1024 := Rect.unit (s := S1x1024) ![0, 0] S1x1024.size Facts₀.inb_S1x1024_S1x1024_0_0
abbrev rSq : Rect S1024x1024 := Rect.unit (s := S1024x1024) ![0, 0] S1024x1024.size Facts₀.inb_S1024x1024_S1024x1024_0_0
abbrev rTwo : Rect S1024x2 := Rect.unit (s := S1024x2) ![0, 0] S1024x2.size Facts₀.inb_S1024x2_S1024x2_0_0
abbrev rB3 : Rect S1x2 := Rect.unit (s := S1x2) ![0, 0] S1x2.size Facts₀.inb_S1x2_S1x2_0_0

/-! ## What the body leaves in the output buffer -/

/-- The output buffer after the body, from the seven input buffers: its one store, the payload of the nine loads. -/
def outBuf (x0 : Vec F S1024x12 .f32) (x1 : Vec F S21x1024 .bf16) (x2 : Vec F S1x1024 .f32) (x3 : Vec F S1024x1024 .bf16) (x4 : Vec F S1x1024 .f32) (x5 : Vec F S1024x2 .bf16) (x6 : Vec F S1x2 .f32) : Vec F S1024x2 .f32 :=
  View.canon [⟨rTwo, k0_pay1 (View.ld x0 rSel) (View.ld x0 rCol10) (View.ld x0 rCol11) (View.ld x1 rW12) (View.ld x2 rRow) (View.ld x3 rSq) (View.ld x4 rRow) (View.ld x5 rTwo) (View.ld x6 rB3)⟩]

/-- The one store covers the buffer. -/
theorem outCover (p0 : Vec F S1024x2 .f32) (y : S1024x2.Idx) :
    ∃ pc ∈ ([⟨rTwo, p0⟩] : List (View.Piece (Elt F) S1024x2 .f32)), y ∈ pc.1.set :=
  View.cover_of_tiled [⟨rTwo, p0⟩] S1024x2.size (by rfl) y

/-! ## The body's triple -/

set_option maxHeartbeats 1000000 in
/-- The body on whole staging memrefs — the seven inputs' at contents `x0 … x6`, the output's at anything — runs to
    its continuation with the inputs' unchanged and the output's at `outBuf` of the inputs'. -/
theorem sound_kernel (c : Dev nD) (E : Set ℕ) (i : grid0.Coords) (a0 : Memref sig .tc .vmem S1024x12 .f32) (h0 : a0.IsWhole) (a1 : Memref sig .tc .vmem S21x1024 .bf16) (h1 : a1.IsWhole) (a2 : Memref sig .tc .vmem S1x1024 .f32) (h2 : a2.IsWhole) (a3 : Memref sig .tc .vmem S1024x1024 .bf16) (h3 : a3.IsWhole) (a4 : Memref sig .tc .vmem S1x1024 .f32) (h4 : a4.IsWhole) (a5 : Memref sig .tc .vmem S1024x2 .bf16) (h5 : a5.IsWhole) (a6 : Memref sig .tc .vmem S1x2 .f32) (h6 : a6.IsWhole) (a7 : Memref sig .tc .vmem S1024x2 .f32) (h7 : a7.IsWhole)
    (x0 : Vec F S1024x12 .f32) (x1 : Vec F S21x1024 .bf16) (x2 : Vec F S1x1024 .f32) (x3 : Vec F S1024x1024 .bf16) (x4 : Vec F S1x1024 .f32) (x5 : Vec F S1024x2 .bf16) (x6 : Vec F S1x2 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (outBuf x0 x1 x2 x3 x4 x5 x6)) -∗ K ⟨⟩))
      ⊢ wp frame (wpE (defs₀ (F := F)) Variants.none c none) E (cc0__moe_kernel i a0 h0 a1 h1 a2 h2 a3 h3 a4 h4 a5 h5 a6 h6 a7 h7) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (outCover _)

/-! ## The pipeline's proof data -/

/-- The proof data of the pipeline on core `c`: the arrays as the region finds them; after the body at point `t`
    each input's buffer at its block and the output's at `outBuf` of the input blocks; the invariant that of a
    pipeline keeping nothing between points (the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBuf (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = outBuf (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Spec.lean ====
/-
  The network both programs compute, as functions on the extended reals over literal index types; no program is
  imported here.

  A row of the input holds ten selection weights `sel`, then `delta`, then `phi`. The first layer's
  pre-activation at hidden unit `l` is written two ways. The kernel contracts ONE fused product of length 21,
  `[phi · sel, sel, delta] · [wm; bm; w1]`, and then adds the bias. The reference adds
  `(delta · w1 l + b1 l)` to `phi · (∑ e, sel e · wm e l) + ∑ e, sel e · bm e l`. The two agree when the
  numbers involved are real (`pre1_fused_eq`): pulling `phi` out of the sum is distributivity, which fails at
  the infinities. The two layers above are one function (`upper`) of the first layer's pre-activations on both
  sides, so nothing about them needs finiteness.
-/
import Idealize.ShloMosaic.PureOps.Ideal
import Idealize.ShloMosaic.Lib.ValueIdx

noncomputable section

namespace Cert.Spec

open Idealize.ShloMosaic Idealize.ShloMosaic.ValueIdx

/-- Layers two and three on one row: `relu` of the first pre-activations through the hidden-to-hidden weights
    `w2 l k` (from unit `l` to unit `k`) and bias, `relu` again, then the read-out `w3 k j` and its bias. -/
def upper (a1 : Fin 1024 → EReal) (w2 : Fin 1024 → Fin 1024 → EReal) (b2 : Fin 1024 → EReal)
    (w3 : Fin 1024 → Fin 2 → EReal) (b3 : Fin 2 → EReal) (j : Fin 2) : EReal :=
  (∑ k : Fin 1024, max ((∑ l : Fin 1024, max (a1 l) 0 * w2 l k) + b2 k) 0 * w3 k j) + b3 j

/-- The fused left operand of a row: `phi · sel e` at `q = e < 10`, `sel e` at `q = 10 + e < 20`, `delta` at `q = 20`. -/
def fusedL (sel : Fin 10 → EReal) (delta phi : EReal) (q : Fin 21) : EReal :=
  if h : q.val < 10 then phi * sel ⟨q.val, h⟩
  else if h' : q.val < 20 then sel ⟨q.val - 10, by omega⟩ else delta

/-- The fused right operand: row `e` of `wm`, then row `e` of `bm`, then `w1`. -/
def fusedR (wm bm : Fin 10 → Fin 1024 → EReal) (w1 : Fin 1024 → EReal) (q : Fin 21) (l : Fin 1024) : EReal :=
  if h : q.val < 10 then wm ⟨q.val, h⟩ l
  else if h' : q.val < 20 then bm ⟨q.val - 10, by omega⟩ l else w1 l

/-- The first layer's pre-activation, as the fused contraction plus the bias. -/
def pre1Fused (sel : Fin 10 → EReal) (delta phi : EReal) (wm bm : Fin 10 → Fin 1024 → EReal) (w1 b1 : Fin 1024 → EReal)
    (l : Fin 1024) : EReal :=
  (∑ q : Fin 21, fusedL sel delta phi q * fusedR wm bm w1 q l) + b1 l

/-- The first layer's pre-activation, as the reference spells it. -/
def pre1Split (sel : Fin 10 → EReal) (delta phi : EReal) (wm bm : Fin 10 → Fin 1024 → EReal) (w1 b1 : Fin 1024 → EReal)
    (l : Fin 1024) : EReal :=
  (delta * w1 l + b1 l) + (phi * (∑ e : Fin 10, sel e * wm e l) + ∑ e : Fin 10, sel e * bm e l)

abbrev Sx : Shape := ⟨2, ![65536, 12]⟩
abbrev Sw1 : Shape := ⟨2, ![1024, 1]⟩
abbrev Sb : Shape := ⟨1, ![1024]⟩
abbrev Sm : Shape := ⟨2, ![10, 1024]⟩
abbrev Sw2 : Shape := ⟨2, ![1024, 1024]⟩
abbrev Sw3 : Shape := ⟨2, ![2, 1024]⟩
abbrev Sb3 : Shape := ⟨1, ![2]⟩
abbrev Sout : Shape := ⟨2, ![65536, 2]⟩

/-- The ten selection weights of row `r` of the input, its `delta` (column 10) and its `phi` (column 11). -/
def selOf (X : Sx.Idx → EReal) (r : Fin 65536) : Fin 10 → EReal := fun e => X (ix2 r (Fin.castLE (by decide) e))
def deltaOf (X : Sx.Idx → EReal) (r : Fin 65536) : EReal := X (ix2 r (10 : Fin 12))
def phiOf (X : Sx.Idx → EReal) (r : Fin 65536) : EReal := X (ix2 r (11 : Fin 12))

/-- The whole network from the first layer's pre-activations `a1 r l`: entry `(r, j)` of the result. The
    hidden-to-hidden weight from unit `l` to unit `k` is `W2 (k, l)`, the read-out from `k` to `j` is `W3 (j, k)`. -/
def net (a1 : Fin 65536 → Fin 1024 → EReal) (W2 : Sw2.Idx → EReal) (B2 : Sb.Idx → EReal) (W3 : Sw3.Idx → EReal)
    (B3 : Sb3.Idx → EReal) : Sout.Idx → EReal := fun i =>
  upper (a1 (i 0)) (fun l k => W2 (ix2 k l)) (fun k => B2 (ix1 k)) (fun k j => W3 (ix2 j k)) (fun j => B3 (ix1 j)) (i 1)

/-- The first layer's pre-activations of every row from the argument arrays, in either spelling. -/
def pre1FusedOf (X : Sx.Idx → EReal) (W1 : Sw1.Idx → EReal) (B1 : Sb.Idx → EReal) (Wm Bm : Sm.Idx → EReal)
    (r : Fin 65536) (l : Fin 1024) : EReal :=
  pre1Fused (selOf X r) (deltaOf X r) (phiOf X r) (fun e l => Wm (ix2 e l)) (fun e l => Bm (ix2 e l))
    (fun l => W1 (ix2 l (0 : Fin 1))) (fun l => B1 (ix1 l)) l
def pre1SplitOf (X : Sx.Idx → EReal) (W1 : Sw1.Idx → EReal) (B1 : Sb.Idx → EReal) (Wm Bm : Sm.Idx → EReal)
    (r : Fin 65536) (l : Fin 1024) : EReal :=
  pre1Split (selOf X r) (deltaOf X r) (phiOf X r) (fun e l => Wm (ix2 e l)) (fun e l => Bm (ix2 e l))
    (fun l => W1 (ix2 l (0 : Fin 1))) (fun l => B1 (ix1 l)) l

/-- What the kernel's result array holds, and what the reference's does. -/
def netFused (X : Sx.Idx → EReal) (W1 : Sw1.Idx → EReal) (B1 : Sb.Idx → EReal) (Wm Bm : Sm.Idx → EReal) (W2 : Sw2.Idx → EReal)
    (B2 : Sb.Idx → EReal) (W3 : Sw3.Idx → EReal) (B3 : Sb3.Idx → EReal) : Sout.Idx → EReal :=
  net (pre1FusedOf X W1 B1 Wm Bm) W2 B2 W3 B3
def netSplit (X : Sx.Idx → EReal) (W1 : Sw1.Idx → EReal) (B1 : Sb.Idx → EReal) (Wm Bm : Sm.Idx → EReal) (W2 : Sw2.Idx → EReal)
    (B2 : Sb.Idx → EReal) (W3 : Sw3.Idx → EReal) (B3 : Sb3.Idx → EReal) : Sout.Idx → EReal :=
  net (pre1SplitOf X W1 B1 Wm Bm) W2 B2 W3 B3

end Cert.Spec

end
-- ==== Proof.KernelPayload.lean ====
/-
  The kernel body's arithmetic, read at an index over the extended reals.

  One row `p` of the input block holds ten selection weights, then `delta`, then `phi`. The body forms the
  1024 × 21 left operand `[phi · sel, sel, delta]` row by row (`lhs_apply`: it is `Spec.fusedL` of the row), and
  runs three matrix products into a zero accumulator, each a finite sum over its contraction index
  (`matmul1_apply`, `matmul2_apply`, `matmul3_apply`), each followed by a bias row added to every row
  (`bias1024_apply`, `bias2_apply`) and, after the first two, a maximum with zero (`relu_apply`). Narrowing to
  the shorter format is the identity on extended reals. Composed, entry `(p, j)` of the result is `Spec.upper` of the
  row's fused first-layer pre-activations (`pay_apply`).
-/
import proofs.«134065_j20744692040155_2_alg».proof.Proof.Gen.KernelIdeal.Skeleton
import proofs.«134065_j20744692040155_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The three matrix products: operand indices at an output index, then the product as a sum -/

theorem matmul1_apply_lhs0 (i : S1024x1024.Idx) (q : dot_S1024x21_S21x1024_S1024x1024_1_0_0_1_n_n.contr.Idx) : (dot_S1024x21_S21x1024_S1024x1024_1_0_0_1_n_n.lhsIdx i q 0).val = (i 0).val := by
  unfold DotDims.lhsIdx
  rw [dif_neg (show ¬(0 : Fin S1024x21.rank) ∈ dot_S1024x21_S21x1024_S1024x1024_1_0_0_1_n_n.lhsBatch by decide), dif_pos (show (0 : Fin S1024x21.rank) ∈ dot_S1024x21_S21x1024_S1024x1024_1_0_0_1_n_n.lhsNonContracting by decide)]
  rfl
theorem matmul1_apply_lhs1 (i : S1024x1024.Idx) (q : dot_S1024x21_S21x1024_S1024x1024_1_0_0_1_n_n.contr.Idx) : (dot_S1024x21_S21x1024_S1024x1024_1_0_0_1_n_n.lhsIdx i q 1).val = (q ⟨0, by decide⟩).val :=
  dot_S1024x21_S21x1024_S1024x1024_1_0_0_1_n_n.lhsIdx_val_of_single rfl i q
theorem matmul1_apply_rhs0 (i : S1024x1024.Idx) (q : dot_S1024x21_S21x1024_S1024x1024_1_0_0_1_n_n.contr.Idx) : (dot_S1024x21_S21x1024_S1024x1024_1_0_0_1_n_n.rhsIdx i q 0).val = (q ⟨0, by decide⟩).val :=
  dot_S1024x21_S21x1024_S1024x1024_1_0_0_1_n_n.rhsIdx_val_of_single rfl i q
theorem matmul1_apply_rhs1 (i : S1024x1024.Idx) (q : dot_S1024x21_S21x1024_S1024x1024_1_0_0_1_n_n.contr.Idx) : (dot_S1024x21_S21x1024_S1024x1024_1_0_0_1_n_n.rhsIdx i q 1).val = (i 1).val := by
  unfold DotDims.rhsIdx
  rw [dif_neg (show ¬(1 : Fin S21x1024.rank) ∈ dot_S1024x21_S21x1024_S1024x1024_1_0_0_1_n_n.rhsBatch by decide), dif_pos (show (1 : Fin S21x1024.rank) ∈ dot_S1024x21_S21x1024_S1024x1024_1_0_0_1_n_n.rhsNonContracting by decide)]
  rfl

/-- A matrix product into the zero accumulator, read at row `p` and column `c`: the sum over the `21` contraction
    positions of the left operand's row entry times the right operand's column entry. -/
theorem matmul1_apply (A : FVec Ideal S1024x21 .bf16) (B : FVec Ideal S21x1024 .bf16) (p : Fin 1024) (c : Fin 1024) :
    matmul dot_S1024x21_S21x1024_S1024x1024_1_0_0_1_n_n none A B (constant S1024x1024 .f32 0x00000000#32) (ix2 p c)
      = ∑ k : Fin 21, A (ix2 p k) * B (ix2 k c) := by
  refine (Ideal.matmul_constant_zero_apply dot_S1024x21_S21x1024_S1024x1024_1_0_0_1_n_n none A B (ix2 p c)).trans ?_
  rw [← Equiv.sum_comp (contrEquiv1 dot_S1024x21_S21x1024_S1024x1024_1_0_0_1_n_n 21 rfl rfl).symm]
  refine Finset.sum_congr rfl fun k _ => ?_
  have hk := contrEquiv1_symm_val dot_S1024x21_S21x1024_S1024x1024_1_0_0_1_n_n 21 rfl rfl k
  have el : dot_S1024x21_S21x1024_S1024x1024_1_0_0_1_n_n.lhsIdx (ix2 p c) ((contrEquiv1 dot_S1024x21_S21x1024_S1024x1024_1_0_0_1_n_n 21 rfl rfl).symm k) = ix2 p k := funext fun a => Fin.ext (by
    match a with
    | ⟨0, _⟩ => exact matmul1_apply_lhs0 _ _
    | ⟨1, _⟩ => exact (matmul1_apply_lhs1 _ _).trans hk)
  have er : dot_S1024x21_S21x1024_S1024x1024_1_0_0_1_n_n.rhsIdx (ix2 p c) ((contrEquiv1 dot_S1024x21_S21x1024_S1024x1024_1_0_0_1_n_n 21 rfl rfl).symm k) = ix2 k c := funext fun a => Fin.ext (by
    match a with
    | ⟨0, _⟩ => exact (matmul1_apply_rhs0 _ _).trans hk
    | ⟨1, _⟩ => exact matmul1_apply_rhs1 _ _)
  rw [el, er]

theorem matmul2_apply_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem matmul2_apply_lhs1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem matmul2_apply_rhs0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem matmul2_apply_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A matrix product into the zero accumulator, read at row `p` and column `c`: the sum over the `1024` contraction
    positions of the left operand's row entry times the right operand's column entry. -/
theorem matmul2_apply (A : FVec Ideal S1024x1024 .bf16) (B : FVec Ideal S1024x1024 .bf16) (p : Fin 1024) (c : Fin 1024) :
    matmul dot_S1024x1024_S1024x1024_S1024x1024_1_0_0_1_n_n none A B (constant S1024x1024 .f32 0x00000000#32) (ix2 p c)
      = ∑ k : Fin 1024, A (ix2 p k) * B (ix2 k c) := by
  refine (Ideal.matmul_constant_zero_apply dot_S1024x1024_S1024x1024_S1024x1024_1_0_0_1_n_n none A B (ix2 p c)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p c) ((contrEquiv1 dot_S1024x1024_S1024x1024_S1024x1024_1_0_0_1_n_n 1024 rfl rfl).symm k) = ix2 p k := funext fun a => Fin.ext (by
    match a with
    | ⟨0, _⟩ => exact matmul2_apply_lhs0 _ _
    | ⟨1, _⟩ => exact (matmul2_apply_lhs1 _ _).trans hk)
  have er : dot_S1024x1024_S1024x1024_S1024x1024_1_0_0_1_n_n.rhsIdx (ix2 p c) ((contrEquiv1 dot_S1024x1024_S1024x1024_S1024x1024_1_0_0_1_n_n 1024 rfl rfl).symm k) = ix2 k c := funext fun a => Fin.ext (by
    match a with
    | ⟨0, _⟩ => exact (matmul2_apply_rhs0 _ _).trans hk
    | ⟨1, _⟩ => exact matmul2_apply_rhs1 _ _)
  rw [el, er]

theorem matmul3_apply_lhs0 (i : S1024x2.Idx) (q : dot_S1024x1024_S1024x2_S1024x2_1_0_0_1_n_n.contr.Idx) : (dot_S1024x1024_S1024x2_S1024x2_1_0_0_1_n_n.lhsIdx i q 0).val = (i 0).val := by
  unfold DotDims.lhsIdx
  rw [dif_neg (show ¬(0 : Fin S1024x1024.rank) ∈ dot_S1024x1024_S1024x2_S1024x2_1_0_0_1_n_n.lhsBatch by decide), dif_pos (show (0 : Fin S1024x1024.rank) ∈ dot_S1024x1024_S1024x2_S1024x2_1_0_0_1_n_n.lhsNonContracting by decide)]
  rfl
theorem matmul3_apply_lhs1 (i : S1024x2.Idx) (q : dot_S1024x1024_S1024x2_S1024x2_1_0_0_1_n_n.contr.Idx) : (dot_S1024x1024_S1024x2_S1024x2_1_0_0_1_n_n.lhsIdx i q 1).val = (q ⟨0, by decide⟩).val :=
  dot_S1024x1024_S1024x2_S1024x2_1_0_0_1_n_n.lhsIdx_val_of_single rfl i q
theorem matmul3_apply_rhs0 (i : S1024x2.Idx) (q : dot_S1024x1024_S1024x2_S1024x2_1_0_0_1_n_n.contr.Idx) : (dot_S1024x1024_S1024x2_S1024x2_1_0_0_1_n_n.rhsIdx i q 0).val = (q ⟨0, by decide⟩).val :=
  dot_S1024x1024_S1024x2_S1024x2_1_0_0_1_n_n.rhsIdx_val_of_single rfl i q
theorem matmul3_apply_rhs1 (i : S1024x2.Idx) (q : dot_S1024x1024_S1024x2_S1024x2_1_0_0_1_n_n.contr.Idx) : (dot_S1024x1024_S1024x2_S1024x2_1_0_0_1_n_n.rhsIdx i q 1).val = (i 1).val := by
  unfold DotDims.rhsIdx
  rw [dif_neg (show ¬(1 : Fin S1024x2.rank) ∈ dot_S1024x1024_S1024x2_S1024x2_1_0_0_1_n_n.rhsBatch by decide), dif_pos (show (1 : Fin S1024x2.rank) ∈ dot_S1024x1024_S1024x2_S1024x2_1_0_0_1_n_n.rhsNonContracting by decide)]
  rfl

/-- A matrix product into the zero accumulator, read at row `p` and column `c`: the sum over the `1024` contraction
    positions of the left operand's row entry times the right operand's column entry. -/
theorem matmul3_apply (A : FVec Ideal S1024x1024 .bf16) (B : FVec Ideal S1024x2 .bf16) (p : Fin 1024) (c : Fin 2) :
    matmul dot_S1024x1024_S1024x2_S1024x2_1_0_0_1_n_n none A B (constant S1024x2 .f32 0x00000000#32) (ix2 p c)
      = ∑ k : Fin 1024, A (ix2 p k) * B (ix2 k c) := by
  refine (Ideal.matmul_constant_zero_apply dot_S1024x1024_S1024x2_S1024x2_1_0_0_1_n_n none A B (ix2 p c)).trans ?_
  rw [← Equiv.sum_comp (contrEquiv1 dot_S1024x1024_S1024x2_S1024x2_1_0_0_1_n_n 1024 rfl rfl).symm]
  refine Finset.sum_congr rfl fun k _ => ?_
  have hk := contrEquiv1_symm_val dot_S1024x1024_S1024x2_S1024x2_1_0_0_1_n_n 1024 rfl rfl k
  have el : dot_S1024x1024_S1024x2_S1024x2_1_0_0_1_n_n.lhsIdx (ix2 p c) ((contrEquiv1 dot_S1024x1024_S1024x2_S1024x2_1_0_0_1_n_n 1024 rfl rfl).symm k) = ix2 p k := funext fun a => Fin.ext (by
    match a with
    | ⟨0, _⟩ => exact matmul3_apply_lhs0 _ _
    | ⟨1, _⟩ => exact (matmul3_apply_lhs1 _ _).trans hk)
  have er : dot_S1024x1024_S1024x2_S1024x2_1_0_0_1_n_n.rhsIdx (ix2 p c) ((contrEquiv1 dot_S1024x1024_S1024x2_S1024x2_1_0_0_1_n_n 1024 rfl rfl).symm k) = ix2 k c := funext fun a => Fin.ext (by
    match a with
    | ⟨0, _⟩ => exact (matmul3_apply_rhs0 _ _).trans hk
    | ⟨1, _⟩ => exact matmul3_apply_rhs1 _ _)
  rw [el, er]

/-! ## Broadcasts, the maximum with zero, and the fused left operand -/

/-- The `phi` column broadcast across the ten selection columns reads the row's `phi`. -/
theorem phi_bcast_apply (v2 : Vec Ideal S1024x1 .f32) (p : Fin 1024) (e : Fin 10) :
    broadcastTo S1024x10 v2 Gen.broadcasts_S1024x1_S1024x10 (ix2 p e) = v2 (ix2 p (0 : Fin 1)) :=
  broadcastTo_apply v2 _ (ix2 p e) (ix2 p (0 : Fin 1)) (fun a => match a with
    | ⟨0, _⟩ => by show p.val = if (1024 : Nat) = 1 then 0 else p.val; rw [if_neg (by decide)]
    | ⟨1, _⟩ => by show 0 = if (1 : Nat) = 1 then 0 else e.val; rw [if_pos rfl])

/-- A bias row broadcast over the 1024 rows reads the bias at the column. -/
theorem bias1024_apply (b : Vec Ideal S1x1024 .f32) (p c : Fin 1024) :
    broadcastTo S1024x1024 b Gen.broadcasts_S1x1024_S1024x1024 (ix2 p c) = b (ix2 (0 : Fin 1) c) :=
  broadcastTo_apply b _ (ix2 p c) (ix2 (0 : Fin 1) c) (fun a => match a with
    | ⟨0, _⟩ => by show 0 = if (1 : Nat) = 1 then 0 else p.val; rw [if_pos rfl]
    | ⟨1, _⟩ => by show c.val = if (1024 : Nat) = 1 then 0 else c.val; rw [if_neg (by decide)])

theorem bias2_apply (b : Vec Ideal S1x2 .f32) (p : Fin 1024) (c : Fin 2) :
    broadcastTo S1024x2 b Gen.broadcasts_S1x2_S1024x2 (ix2 p c) = b (ix2 (0 : Fin 1) c) :=
  broadcastTo_apply b _ (ix2 p c) (ix2 (0 : Fin 1) c) (fun a => match a with
    | ⟨0, _⟩ => by show 0 = if (1 : Nat) = 1 then 0 else p.val; rw [if_pos rfl]
    | ⟨1, _⟩ => by show c.val = if (2 : Nat) = 1 then 0 else c.val; rw [if_neg (by decide)])

/-- The maximum with the zero splat is the maximum with zero. -/
theorem relu_apply (x : FVec Ideal S1024x1024 .f32) (i : S1024x1024.Idx) :
    maximumf x (broadcast S1024x1024 (Scalar.ofBits (F := Ideal) .f32 0x00000000#32)) i = max (x i) 0 := by
  show max (x i) (Ideal.ofBits .f32 0x00000000#32) = max (x i) 0
  rw [Ideal.ofBits_zero_f32]

/-- The 1024 × 21 left operand of the first product, row by row: `phi · sel e` in columns `e < 10`, `sel e` in
    columns `10 + e`, `delta` in column 20. -/
theorem lhs_apply (v0 : FVec Ideal S1024x10 .f32) (v1 v2 : FVec Ideal S1024x1 .f32) (p : Fin 1024) (q : Fin 21) :
    concatenate (α := Ideal .f32) S1024x21 1 [⟨S1024x10, mulf (F := Ideal) (φ := .f32) (broadcastTo S1024x10 v2 Gen.broadcasts_S1024x1_S1024x10) v0⟩, ⟨S1024x10, v0⟩, ⟨S1024x1, v1⟩]
        Gen.concatenates_S1024x10_S1024x10_S1024x1_S1024x21_d1 (ix2 p q)
      = Cert.Spec.fusedL (fun e => v0 (ix2 p e)) (v1 (ix2 p (0 : Fin 1))) (v2 (ix2 p (0 : Fin 1))) q := by
  unfold Cert.Spec.fusedL
  by_cases h : q.val < 10
  · rw [dif_pos h]
    refine (concatenate_apply_piece (1 : Fin S1024x21.rank) _ _ (ix2 p q) 0 (by show (0 : Nat) < 3; omega) S1024x10 _ rfl rfl 0 rfl
      (ix2 p (⟨q.val, h⟩ : Fin 10)) ?_ ?_).trans ?_
    · intro b hb
      match b with
      | ⟨0, _⟩ => rfl
      | ⟨1, _⟩ => exact absurd rfl hb
    · show 0 + q.val = q.val
      omega
    · show broadcastTo S1024x10 v2 Gen.broadcasts_S1024x1_S1024x10 (ix2 p (⟨q.val, h⟩ : Fin 10)) * v0 (ix2 p (⟨q.val, h⟩ : Fin 10)) = _
      rw [phi_bcast_apply]
  · rw [dif_neg h]
    by_cases h' : q.val < 20
    · rw [dif_pos h']
      refine concatenate_apply_piece (1 : Fin S1024x21.rank) _ _ (ix2 p q) 1 (by show (1 : Nat) < 3; omega) S1024x10 _ rfl rfl 10 rfl
        (ix2 p (⟨q.val - 10, by omega⟩ : Fin 10)) ?_ ?_
      · intro b hb
        match b with
        | ⟨0, _⟩ => rfl
        | ⟨1, _⟩ => exact absurd rfl hb
      · show 10 + (q.val - 10) = q.val
        omega
    · rw [dif_neg h']
      refine concatenate_apply_piece (1 : Fin S1024x21.rank) _ _ (ix2 p q) 2 (by show (2 : Nat) < 3; omega) S1024x1 _ rfl rfl 20 rfl
        (ix2 p (0 : Fin 1)) ?_ ?_
      · intro b hb
        match b with
        | ⟨0, _⟩ => rfl
        | ⟨1, _⟩ => exact absurd rfl hb
      · show 20 + 0 = q.val
        have := q.isLt
        omega

/-! ## The body's value -/

/-- The kernel body's value at row `p`, column `j`: the two upper layers applied to the first layer's fused
    pre-activations of the row. -/
theorem pay_apply (v0 : Vec Ideal S1024x10 .f32) (v1 : Vec Ideal S1024x1 .f32) (v2 : Vec Ideal S1024x1 .f32) (v7 : Vec Ideal S21x1024 .bf16) (v10 : Vec Ideal S1x1024 .f32) (v17 : Vec Ideal S1024x1024 .bf16) (v20 : Vec Ideal S1x1024 .f32) (v27 : Vec Ideal S1024x2 .bf16) (v30 : Vec Ideal S1x2 .f32) (p : Fin 1024) (j : Fin 2) :
    k0_pay1 (F := Ideal) v0 v1 v2 v7 v10 v17 v20 v27 v30 (ix2 p j)
      = Cert.Spec.upper
          (fun l => (∑ q : Fin 21, Cert.Spec.fusedL (fun e => v0 (ix2 p e)) (v1 (ix2 p (0 : Fin 1))) (v2 (ix2 p (0 : Fin 1))) q * v7 (ix2 q l)) + v10 (ix2 (0 : Fin 1) l))
          (fun l k => v17 (ix2 l k)) (fun k => v20 (ix2 (0 : Fin 1) k)) (fun k j => v27 (ix2 k j)) (fun j => v30 (ix2 (0 : Fin 1) j)) j := by
  unfold k0_pay1
  simp only [shapeCast_self]
  unfold Cert.Spec.upper
  refine (addf_apply _ _ (ix2 p j)).trans (congrArg₂ (fun x y : EReal => x + y)
    ((matmul3_apply _ _ p j).trans (Finset.sum_congr rfl fun k _ => congrArg (fun x : EReal => x * v27 (ix2 k j)) ?_))
    (bias2_apply v30 p j))
  refine (truncf_apply (φ := .f32) (ψ := .bf16) _ _ (ix2 p k)).trans ((relu_apply _ (ix2 p k)).trans (congrArg (fun x : EReal => max x 0) ?_))
  refine (addf_apply _ _ (ix2 p k)).trans (congrArg₂ (fun x y : EReal => x + y)
    ((matmul2_apply _ _ p k).trans (Finset.sum_congr rfl fun l _ => congrArg (fun x : EReal => x * v17 (ix2 l k)) ?_))
    (bias1024_apply v20 p k))
  refine (truncf_apply (φ := .f32) (ψ := .bf16) _ _ (ix2 p l)).trans ((relu_apply _ (ix2 p l)).trans (congrArg (fun x : EReal => max x 0) ?_))
  refine (addf_apply _ _ (ix2 p l)).trans (congrArg₂ (fun x y : EReal => x + y)
    ((matmul1_apply _ _ p l).trans (Finset.sum_congr rfl fun q _ => congrArg (fun x : EReal => x * v7 (ix2 q l)) ?_))
    (bias1024_apply v10 p l))
  exact (truncf_apply (φ := .f32) (ψ := .bf16) _ _ (ix2 p q)).trans (lhs_apply v0 v1 v2 p q)

end Cert.KernelIdeal.Payload

end
-- ==== Proof.KernelValue.lean ====
/-
  What the kernel's result array holds after the run, at the extended reals: the network, in the fused spelling,
  of the nine argument arrays.

  The host operations before the region prepare six arrays: the three bias vectors reshaped to rows, the fused
  right operand (the two expert tables stacked over the transposed first-layer weight column), and the transposed
  hidden-to-hidden and read-out weights; narrowing is the identity on extended reals. Each is read at an index as an
  entry of an argument. At grid point `t` the input window's block is rows `1024 t … 1024 t + 1023` of the input,
  every resident window's block is its whole array, and the output window's block is rows
  `1024 t … 1024 t + 1023` of the result. The body's payload at entry `(p, j)` is the upper layers of the fused
  first layer of row `p` of its blocks, so point `t` writes back block `t` of the network of the arguments; the
  64 blocks cover the result (row `r` lies in block `r / 1024`), so the result array ends as that network.
-/
import proofs.«134065_j20744692040155_2_alg».proof.Proof.KernelIdealFrame
import proofs.«134065_j20744692040155_2_alg».proof.Proof.Spec
import proofs.«134065_j20744692040155_2_alg».proof.Proof.KernelPayload
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HandValue

open Cert.KernelIdeal Cert.KernelIdeal.Gen Cert.KernelIdeal.Hand

variable (m : (ℓ : Loc nD τ sig) → Buf (Elt Ideal) ℓ) (ρ : Dev nD → PrngReg)

theorem hz : (![0, 0] : Fin 2 → Nat) = fun _ => 0 := funext fun a => by fin_cases a <;> rfl

/-! ## The arrays the host operations prepare, as the region finds them -/

/-- The three bias rows: each bias vector reshaped to one row. -/
theorem V_b1_term (c : Dev nD) : (V m c main_v0 : S1x1024.Idx → EReal)
    = shapeCast S1x1024 (m ((c : Thread nD τ).loc main_arg2) : S1024.Idx → EReal) Facts₀.shapeCasts_S1024_S1x1024 := by
  dsimp only [V, hostOps0]; after_results <;> rfl
theorem V_b2_term (c : Dev nD) : (V m c main_v1 : S1x1024.Idx → EReal)
    = shapeCast S1x1024 (m ((c : Thread nD τ).loc main_arg6) : S1024.Idx → EReal) Facts₀.shapeCasts_S1024_S1x1024 := by
  dsimp only [V, hostOps0]; after_results <;> rfl
theorem V_b3_term (c : Dev nD) : (V m c main_v2 : S1x2.Idx → EReal)
    = shapeCast S1x2 (m ((c : Thread nD τ).loc main_arg8) : S2.Idx → EReal) Facts₀.shapeCasts_S2_S1x2 := by
  dsimp only [V, hostOps0]; after_results <;> rfl

/-- The fused right operand: the two expert tables stacked over the transposed first-layer weight column, narrowed. -/
theorem V_w12_term (c : Dev nD) : (V m c main_v5 : S21x1024.Idx → EReal)
    = truncf (F := Ideal) .bf16 (concatenate S21x1024 0 [⟨S10x1024, (m ((c : Thread nD τ).loc main_arg3) : S10x1024.Idx → EReal)⟩, ⟨S10x1024, (m ((c : Thread nD τ).loc main_arg4) : S10x1024.Idx → EReal)⟩,
        ⟨S1x1024, transpose S1x1024 [1, 0] (m ((c : Thread nD τ).loc main_arg1) : S1024x1.Idx → EReal) Facts₀.transposes_S1024x1_S1x1024_1_0⟩]
        Facts₀.concatenates_S10x1024_S10x1024_S1x1024_S21x1024_d0) Facts₀.bitsLt_bf16_f32 := by
  dsimp only [V, hostOps0]; after_results <;> rfl

/-- The hidden-to-hidden weights and the read-out weights, transposed and narrowed. -/
theorem V_w2_term (c : Dev nD) : (V m c main_v7 : S1024x1024.Idx → EReal)
    = truncf (F := Ideal) .bf16 (transpose S1024x1024 [1, 0] (m ((c : Thread nD τ).loc main_arg5) : S1024x1024.Idx → EReal) Facts₀.transposes_S1024x1024_S1024x1024_1_0) Facts₀.bitsLt_bf16_f32 := by
  dsimp only [V, hostOps0]; after_results <;> rfl
theorem V_w3_term (c : Dev nD) : (V m c main_v9 : S1024x2.Idx → EReal)
    = truncf (F := Ideal) .bf16 (transpose S1024x2 [1, 0] (m ((c : Thread nD τ).loc main_arg7) : S2x1024.Idx → EReal) Facts₀.transposes_S2x1024_S1024x2_1_0) Facts₀.bitsLt_bf16_f32 := by
  dsimp only [V, hostOps0]; after_results <;> rfl

/-! ## … read at an index -/

theorem V_b1_apply (c : Dev nD) (l : Fin 1024) :
    (V m c main_v0 : S1x1024.Idx → EReal) (ix2 (0 : Fin 1) l) = (m ((c : Thread nD τ).loc main_arg2) : S1024.Idx → EReal) (ix1 l) := by
  rw [V_b1_term]
  refine shapeCast_apply _ _ _ _ ?_
  show (S1024.rowMajor (ix1 l)).val = (S1x1024.rowMajor (ix2 (0 : Fin 1) l)).val
  rw [Shape.rowMajor_val_one, Shape.rowMajor_val_two]
  show (l : Nat) = 0 * 1024 + (l : Nat)
  omega
theorem V_b2_apply (c : Dev nD) (k : Fin 1024) :
    (V m c main_v1 : S1x1024.Idx → EReal) (ix2 (0 : Fin 1) k) = (m ((c : Thread nD τ).loc main_arg6) : S1024.Idx → EReal) (ix1 k) := by
  rw [V_b2_term]
  refine shapeCast_apply _ _ _ _ ?_
  show (S1024.rowMajor (ix1 k)).val = (S1x1024.rowMajor (ix2 (0 : Fin 1) k)).val
  rw [Shape.rowMajor_val_one, Shape.rowMajor_val_two]
  show (k : Nat) = 0 * 1024 + (k : Nat)
  omega
theorem V_b3_apply (c : Dev nD) (j : Fin 2) :
    (V m c main_v2 : S1x2.Idx → EReal) (ix2 (0 : Fin 1) j) = (m ((c : Thread nD τ).loc main_arg8) : S2.Idx → EReal) (ix1 j) := by
  rw [V_b3_term]
  refine shapeCast_apply _ _ _ _ ?_
  show (S2.rowMajor (ix1 j)).val = (S1x2.rowMajor (ix2 (0 : Fin 1) j)).val
  rw [Shape.rowMajor_val_one, Shape.rowMajor_val_two]
  show (j : Nat) = 0 * 2 + (j : Nat)
  omega

/-- Entry `(l, k)` of the transposed hidden-to-hidden weights is entry `(k, l)` of the argument. -/
theorem V_w2_apply (c : Dev nD) (l k : Fin 1024) :
    (V m c main_v7 : S1024x1024.Idx → EReal) (ix2 l k) = (m ((c : Thread nD τ).loc main_arg5) : S1024x1024.Idx → EReal) (ix2 k l) := by
  rw [V_w2_term]
  show transpose S1024x1024 [1, 0] (m ((c : Thread nD τ).loc main_arg5) : S1024x1024.Idx → EReal) Facts₀.transposes_S1024x1024_S1024x1024_1_0 (ix2 l k) = _
  exact transpose_apply _ _ _ _ _ (fun b => by match b with | ⟨0, _⟩ => rfl | ⟨1, _⟩ => rfl)
theorem V_w3_apply (c : Dev nD) (k : Fin 1024) (j : Fin 2) :
    (V m c main_v9 : S1024x2.Idx → EReal) (ix2 k j) = (m ((c : Thread nD τ).loc main_arg7) : S2x1024.Idx → EReal) (ix2 j k) := by
  rw [V_w3_term]
  show transpose S1024x2 [1, 0] (m ((c : Thread nD τ).loc main_arg7) : S2x1024.Idx → EReal) Facts₀.transposes_S2x1024_S1024x2_1_0 (ix2 k j) = _
  exact transpose_apply _ _ _ _ _ (fun b => by match b with | ⟨0, _⟩ => rfl | ⟨1, _⟩ => rfl)

/-- Row `q` of the fused right operand is row `q` of the first expert table for `q < 10`, row `q - 10` of the
    second for `q < 20`, and the first-layer weight column for `q = 20`. -/
theorem V_w12_apply (c : Dev nD) (q : Fin 21) (l : Fin 1024) :
    (V m c main_v5 : S21x1024.Idx → EReal) (ix2 q l)
      = Spec.fusedR (fun e l => (m ((c : Thread nD τ).loc main_arg3) : S10x1024.Idx → EReal) (ix2 e l)) (fun e l => (m ((c : Thread nD τ).loc main_arg4) : S10x1024.Idx → EReal) (ix2 e l)) (fun l => (m ((c : Thread nD τ).loc main_arg1) : S1024x1.Idx → EReal) (ix2 l (0 : Fin 1))) q l := by
  rw [V_w12_term]
  show concatenate S21x1024 0 [⟨S10x1024, (m ((c : Thread nD τ).loc main_arg3) : S10x1024.Idx → EReal)⟩, ⟨S10x1024, (m ((c : Thread nD τ).loc main_arg4) : S10x1024.Idx → EReal)⟩,
        ⟨S1x1024, transpose S1x1024 [1, 0] (m ((c : Thread nD τ).loc main_arg1) : S1024x1.Idx → EReal) Facts₀.transposes_S1024x1_S1x1024_1_0⟩]
        Facts₀.concatenates_S10x1024_S10x1024_S1x1024_S21x1024_d0 (ix2 q l) = _
  unfold Spec.fusedR
  have key := concatenate_apply_piece (α := EReal) (t := S21x1024) (0 : Fin 2)
    [⟨S10x1024, (m ((c : Thread nD τ).loc main_arg3) : S10x1024.Idx → EReal)⟩, ⟨S10x1024, (m ((c : Thread nD τ).loc main_arg4) : S10x1024.Idx → EReal)⟩,
      ⟨S1x1024, transpose S1x1024 [1, 0] (m ((c : Thread nD τ).loc main_arg1) : S1024x1.Idx → EReal) Facts₀.transposes_S1024x1_S1x1024_1_0⟩]
    Facts₀.concatenates_S10x1024_S10x1024_S1x1024_S21x1024_d0 (ix2 q l)
  by_cases h : q.val < 10
  · rw [dif_pos h]
    exact key 0 (by show 0 < 3; omega) S10x1024 _ rfl rfl 0 rfl (ix2 ⟨q.val, h⟩ l)
      (fun b hb => by match b with | ⟨0, _⟩ => exact absurd rfl hb | ⟨1, _⟩ => rfl) (by show 0 + q.val = q.val; omega)
  · rw [dif_neg h]
    by_cases h' : q.val < 20
    · rw [dif_pos h']
      exact key 1 (by show 1 < 3; omega) S10x1024 _ rfl rfl 10 rfl (ix2 ⟨q.val - 10, by omega⟩ l)
        (fun b hb => by match b with | ⟨0, _⟩ => exact absurd rfl hb | ⟨1, _⟩ => rfl) (by show 10 + (q.val - 10) = q.val; omega)
    · rw [dif_neg h']
      have hq : q.val = 20 := by have := q.isLt; omega
      refine (key 2 (by show 2 < 3; omega) S1x1024 _ rfl rfl 20 rfl (ix2 (0 : Fin 1) l)
        (fun b hb => by match b with | ⟨0, _⟩ => exact absurd rfl hb | ⟨1, _⟩ => rfl) (by show 20 + 0 = q.val; omega)).trans ?_
      exact transpose_apply _ _ _ _ _ (fun b => by match b with | ⟨0, _⟩ => rfl | ⟨1, _⟩ => rfl)

/-! ## The windows' blocks -/

/-- The index maps, decided over the 64 grid points: the input window and the output window are at block row `t`,
    the six resident windows at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The input block at point `t` is rows `1024 t … 1024 t + 1023` of the input. -/
theorem blk_x (c : Dev nD) (t : Fin cfg0.N) (y : S1024x12.Idx) (i : S65536x12.Idx)
    (h0 : (i 0).val = 1024 * t.val + (y 0).val) (h1 : (i 1).val = (y 1).val) :
    (iblk m c 0 t : S1024x12.Idx → EReal) y = (m ((c : Thread nD τ).loc main_arg0) : S65536x12.Idx → EReal) i := by
  unfold iblk
  rw [View.read_apply]
  show (V m c main_arg0 : S65536x12.Idx → EReal) _ = _
  rw [V_main_arg0]
  refine congrArg _ (funext fun a => Fin.ext ?_)
  obtain ⟨⟨e0, e1⟩, -, -, -, -, -, -, -⟩ := idx_facts t
  match a with
  | ⟨0, _⟩ => show win0_0.index t 0 * 1024 + 1 * (y 0).val = (i 0).val; rw [e0, h0]; omega
  | ⟨1, _⟩ => show win0_0.index t 1 * 12 + 1 * (y 1).val = (i 1).val; rw [e1, h1]; omega

/-- Each resident window's block is its whole array, at every point. -/
theorem blk_w12 (c : Dev nD) (t : Fin cfg0.N) : (iblk m c 1 t : S21x1024.Idx → EReal) = (V m c main_v5 : S21x1024.Idx → EReal) := by
  funext y
  unfold iblk
  rw [View.read_apply]
  show V m c main_v5 _ = V m c main_v5 y
  refine congrArg _ (funext fun a => Fin.ext ?_)
  obtain ⟨-, ⟨e0, e1⟩, -, -, -, -, -, -⟩ := idx_facts t
  match a with
  | ⟨0, _⟩ => show win0_1.index t 0 * 21 + 1 * (y 0).val = (y 0).val; rw [e0]; omega
  | ⟨1, _⟩ => show win0_1.index t 1 * 1024 + 1 * (y 1).val = (y 1).val; rw [e1]; omega
theorem blk_b1 (c : Dev nD) (t : Fin cfg0.N) : (iblk m c 2 t : S1x1024.Idx → EReal) = (V m c main_v0 : S1x1024.Idx → EReal) := by
  funext y
  unfold iblk
  rw [View.read_apply]
  show V m c main_v0 _ = V m c main_v0 y
  refine congrArg _ (funext fun a => Fin.ext ?_)
  obtain ⟨-, -, ⟨e0, e1⟩, -, -, -, -, -⟩ := idx_facts t
  match a with
  | ⟨0, _⟩ => show win0_2.index t 0 * 1 + 1 * (y 0).val = (y 0).val; rw [e0]; omega
  | ⟨1, _⟩ => show win0_2.index t 1 * 1024 + 1 * (y 1).val = (y 1).val; rw [e1]; omega
theorem blk_w2 (c : Dev nD) (t : Fin cfg0.N) : (iblk m c 3 t : S1024x1024.Idx → EReal) = (V m c main_v7 : S1024x1024.Idx → EReal) := by
  funext y
  unfold iblk
  rw [View.read_apply]
  show V m c main_v7 _ = V m c main_v7 y
  refine congrArg _ (funext fun a => Fin.ext ?_)
  obtain ⟨-, -, -, ⟨e0, e1⟩, -, -, -, -⟩ := idx_facts t
  match a with
  | ⟨0, _⟩ => show win0_3.index t 0 * 1024 + 1 * (y 0).val = (y 0).val; rw [e0]; omega
  | ⟨1, _⟩ => show win0_3.index t 1 * 1024 + 1 * (y 1).val = (y 1).val; rw [e1]; omega
theorem blk_b2 (c : Dev nD) (t : Fin cfg0.N) : (iblk m c 4 t : S1x1024.Idx → EReal) = (V m c main_v1 : S1x1024.Idx → EReal) := by
  funext y
  unfold iblk
  rw [View.read_apply]
  show V m c main_v1 _ = V m c main_v1 y
  refine congrArg _ (funext fun a => Fin.ext ?_)
  obtain ⟨-, -, -, -, ⟨e0, e1⟩, -, -, -⟩ := idx_facts t
  match a with
  | ⟨0, _⟩ => show win0_4.index t 0 * 1 + 1 * (y 0).val = (y 0).val; rw [e0]; omega
  | ⟨1, _⟩ => show win0_4.index t 1 * 1024 + 1 * (y 1).val = (y 1).val; rw [e1]; omega
theorem blk_w3 (c : Dev nD) (t : Fin cfg0.N) : (iblk m c 5 t : S1024x2.Idx → EReal) = (V m c main_v9 : S1024x2.Idx → EReal) := by
  funext y
  unfold iblk
  rw [View.read_apply]
  show V m c main_v9 _ = V m c main_v9 y
  refine congrArg _ (funext fun a => Fin.ext ?_)
  obtain ⟨-, -, -, -, -, ⟨e0, e1⟩, -, -⟩ := idx_facts t
  match a with
  | ⟨0, _⟩ => show win0_5.index t 0 * 1024 + 1 * (y 0).val = (y 0).val; rw [e0]; omega
  | ⟨1, _⟩ => show win0_5.index t 1 * 2 + 1 * (y 1).val = (y 1).val; rw [e1]; omega
theorem blk_b3 (c : Dev nD) (t : Fin cfg0.N) : (iblk m c 6 t : S1x2.Idx → EReal) = (V m c main_v2 : S1x2.Idx → EReal) := by
  funext y
  unfold iblk
  rw [View.read_apply]
  show V m c main_v2 _ = V m c main_v2 y
  refine congrArg _ (funext fun a => Fin.ext ?_)
  obtain ⟨-, -, -, -, -, -, ⟨e0, e1⟩, -⟩ := idx_facts t
  match a with
  | ⟨0, _⟩ => show win0_6.index t 0 * 1 + 1 * (y 0).val = (y 0).val; rw [e0]; omega
  | ⟨1, _⟩ => show win0_6.index t 1 * 2 + 1 * (y 1).val = (y 1).val; rw [e1]; omega

/-! ## What a point writes back -/

/-- The result array both programs are compared at: the network, in the fused spelling, of the argument arrays. -/
abbrev result (c : Dev nD) : S65536x2.Idx → EReal :=
  Spec.netFused (m ((c : Thread nD τ).loc main_arg0) : S65536x12.Idx → EReal) (m ((c : Thread nD τ).loc main_arg1) : S1024x1.Idx → EReal) (m ((c : Thread nD τ).loc main_arg2) : S1024.Idx → EReal) (m ((c : Thread nD τ).loc main_arg3) : S10x1024.Idx → EReal) (m ((c : Thread nD τ).loc main_arg4) : S10x1024.Idx → EReal) (m ((c : Thread nD τ).loc main_arg5) : S1024x1024.Idx → EReal) (m ((c : Thread nD τ).loc main_arg6) : S1024.Idx → EReal) (m ((c : Thread nD τ).loc main_arg7) : S2x1024.Idx → EReal) (m ((c : Thread nD τ).loc main_arg8) : S2.Idx → EReal)

/-- Row `p` of point `t`'s block is row `1024 t + p` of the array. -/
def rowOf (t : Fin cfg0.N) (p : Fin 1024) : Fin 65536 :=
  ⟨1024 * t.val + p.val, by have h : t.val < 64 := lt_of_lt_of_eq t.isLt N_0; have := p.isLt; omega⟩

theorem ld_sel (c : Dev nD) (t : Fin cfg0.N) (p : Fin 1024) (e : Fin 10) :
    View.ld (iblk m c 0 t : S1024x12.Idx → EReal) rSel (ix2 p e) = Spec.selOf (m ((c : Thread nD τ).loc main_arg0) : S65536x12.Idx → EReal) (rowOf t p) e :=
  blk_x m c t _ _ (by show 1024 * t.val + p.val = 1024 * t.val + (0 + 1 * p.val); omega) (by show e.val = 0 + 1 * e.val; omega)
theorem ld_delta (c : Dev nD) (t : Fin cfg0.N) (p : Fin 1024) :
    View.ld (iblk m c 0 t : S1024x12.Idx → EReal) rCol10 (ix2 p (0 : Fin 1)) = Spec.deltaOf (m ((c : Thread nD τ).loc main_arg0) : S65536x12.Idx → EReal) (rowOf t p) :=
  blk_x m c t _ _ (by show 1024 * t.val + p.val = 1024 * t.val + (0 + 1 * p.val); omega) (by show 10 = 10 + 1 * 0; omega)
theorem ld_phi (c : Dev nD) (t : Fin cfg0.N) (p : Fin 1024) :
    View.ld (iblk m c 0 t : S1024x12.Idx → EReal) rCol11 (ix2 p (0 : Fin 1)) = Spec.phiOf (m ((c : Thread nD τ).loc main_arg0) : S65536x12.Idx → EReal) (rowOf t p) :=
  blk_x m c t _ _ (by show 1024 * t.val + p.val = 1024 * t.val + (0 + 1 * p.val); omega) (by show 11 = 11 + 1 * 0; omega)

/-- Entry `(p, j)` of the output block at point `t` is entry `(1024 t + p, j)` of the result array. -/
theorem out_emb (t : Fin cfg0.N) (p : Fin 1024) (j : Fin 2) :
    ((cfg0.win 7).blk t).view.emb (ix2 p j) = (ix2 (rowOf t p) j : S65536x2.Idx) := by
  funext a
  apply Fin.ext
  obtain ⟨-, -, -, -, -, -, -, ⟨e0, e1⟩⟩ := idx_facts t
  match a with
  | ⟨0, _⟩ => show win0_7.index t 0 * 1024 + 1 * p.val = 1024 * t.val + p.val; rw [e0]; omega
  | ⟨1, _⟩ => show win0_7.index t 1 * 2 + 1 * j.val = j.val; rw [e1]; omega

/-- The output buffer after the body is the payload of the three column ranges of the input buffer and of the six
    resident buffers read whole. -/
theorem outBuf_eq (x0 : Vec Ideal S1024x12 .f32) (x1 : Vec Ideal S21x1024 .bf16) (x2 : Vec Ideal S1x1024 .f32)
    (x3 : Vec Ideal S1024x1024 .bf16) (x4 : Vec Ideal S1x1024 .f32) (x5 : Vec Ideal S1024x2 .bf16) (x6 : Vec Ideal S1x2 .f32) :
    outBuf (F := Ideal) x0 x1 x2 x3 x4 x5 x6
      = k0_pay1 (F := Ideal) (View.ld x0 rSel) (View.ld x0 rCol10) (View.ld x0 rCol11) x1 x2 x3 x4 x5 x6 := by
  unfold outBuf
  rw [View.canon_unit_zero hz]
  simp only [View.ld_unit_zero (S := S21x1024) hz, View.ld_unit_zero (S := S1x1024) hz, View.ld_unit_zero (S := S1024x1024) hz,
    View.ld_unit_zero (S := S1024x2) hz, View.ld_unit_zero (S := S1x2) hz]

/-- One entry of the payload, over any buffers that hold row `r` of the input and the prepared arrays: the
    network of the argument arrays at `(r, j)`. -/
theorem point_eq (x0 : Vec Ideal S1024x12 .f32) (w12 : Vec Ideal S21x1024 .bf16) (b1 : Vec Ideal S1x1024 .f32)
    (w2 : Vec Ideal S1024x1024 .bf16) (b2 : Vec Ideal S1x1024 .f32) (w3 : Vec Ideal S1024x2 .bf16) (b3 : Vec Ideal S1x2 .f32)
    (X : Spec.Sx.Idx → EReal) (W1 : Spec.Sw1.Idx → EReal) (B1 : Spec.Sb.Idx → EReal) (Wm Bm : Spec.Sm.Idx → EReal)
    (W2 : Spec.Sw2.Idx → EReal) (B2 : Spec.Sb.Idx → EReal) (W3 : Spec.Sw3.Idx → EReal) (B3 : Spec.Sb3.Idx → EReal)
    (r : Fin 65536) (p : Fin 1024) (j : Fin 2)
    (hsel : ∀ e : Fin 10, View.ld x0 rSel (ix2 p e) = Spec.selOf X r e)
    (hdelta : View.ld x0 rCol10 (ix2 p (0 : Fin 1)) = Spec.deltaOf X r)
    (hphi : View.ld x0 rCol11 (ix2 p (0 : Fin 1)) = Spec.phiOf X r)
    (hw12 : ∀ (q : Fin 21) (l : Fin 1024), w12 (ix2 q l)
      = Spec.fusedR (fun e l => Wm (ix2 e l)) (fun e l => Bm (ix2 e l)) (fun l => W1 (ix2 l (0 : Fin 1))) q l)
    (hb1 : ∀ l : Fin 1024, b1 (ix2 (0 : Fin 1) l) = B1 (ix1 l))
    (hw2 : ∀ l k : Fin 1024, w2 (ix2 l k) = W2 (ix2 k l))
    (hb2 : ∀ k : Fin 1024, b2 (ix2 (0 : Fin 1) k) = B2 (ix1 k))
    (hw3 : ∀ (k : Fin 1024) (j : Fin 2), w3 (ix2 k j) = W3 (ix2 j k))
    (hb3 : ∀ j : Fin 2, b3 (ix2 (0 : Fin 1) j) = B3 (ix1 j)) :
    k0_pay1 (F := Ideal) (View.ld x0 rSel) (View.ld x0 rCol10) (View.ld x0 rCol11) w12 b1 w2 b2 w3 b3 (ix2 p j)
      = Spec.netFused X W1 B1 Wm Bm W2 B2 W3 B3 (ix2 r j) := by
  rw [Cert.KernelIdeal.Payload.pay_apply]
  simp only [hsel, hdelta, hphi, hw12, hb1, hw2, hb2, hw3, hb3]
  rfl

/-- What point `t` writes back is block `t` of the network of the argument arrays: the input block's rows are the
    array's, and the resident blocks are the arrays the host operations prepared. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after_out, outBuf_eq]
  funext y
  obtain ⟨p, j, rfl⟩ : ∃ (p : Fin 1024) (j : Fin 2), y = ix2 p j := ⟨y 0, y 1, eq_ix2 y⟩
  refine (point_eq (iblk m c 0 t) (iblk m c 1 t) (iblk m c 2 t) (iblk m c 3 t) (iblk m c 4 t) (iblk m c 5 t) (iblk m c 6 t)
    (m ((c : Thread nD τ).loc main_arg0) : S65536x12.Idx → EReal) (m ((c : Thread nD τ).loc main_arg1) : S1024x1.Idx → EReal) (m ((c : Thread nD τ).loc main_arg2) : S1024.Idx → EReal) (m ((c : Thread nD τ).loc main_arg3) : S10x1024.Idx → EReal) (m ((c : Thread nD τ).loc main_arg4) : S10x1024.Idx → EReal) (m ((c : Thread nD τ).loc main_arg5) : S1024x1024.Idx → EReal) (m ((c : Thread nD τ).loc main_arg6) : S1024.Idx → EReal) (m ((c : Thread nD τ).loc main_arg7) : S2x1024.Idx → EReal) (m ((c : Thread nD τ).loc main_arg8) : S2.Idx → EReal) (rowOf t p) p j
    (ld_sel m c t p) (ld_delta m c t p) (ld_phi m c t p)
    (fun q l => (congrFun (blk_w12 m c t) _).trans (V_w12_apply m c q l))
    (fun l => (congrFun (blk_b1 m c t) _).trans (V_b1_apply m c l))
    (fun l k => (congrFun (blk_w2 m c t) _).trans (V_w2_apply m c l k))
    (fun k => (congrFun (blk_b2 m c t) _).trans (V_b2_apply m c k))
    (fun k j => (congrFun (blk_w3 m c t) _).trans (V_w3_apply m c k j))
    (fun j => (congrFun (blk_b3 m c t) _).trans (V_b3_apply m c j))).trans ?_
  exact congrArg (result m c) (out_emb t p j).symm

/-! ## The result array after the run -/

theorem mem_blk (t : Fin cfg0.N) (i : S65536x2.Idx) :
    i ∈ ((cfg0.win 7).blk t).view.set ↔ ∀ a : Fin 2, win0_7.index t a * S1024x2.size a ≤ (i a).val
      ∧ (i a).val < win0_7.index t a * S1024x2.size a + S1024x2.size a := by
  show i ∈ ((View.whole main_v10).slice (win0_7.rect t)).set ↔ _
  rw [View.set_slice_whole, Rect.mem_set_unit]
  exact Iff.rfl

/-- Row `r` of the result is written back by point `r / 1024`. -/
theorem cover (i : S65536x2.Idx) : ∃ t : Fin cfg0.N, (cfg0.win 7).flush t = true ∧ i ∈ ((cfg0.win 7).blk t).view.set := by
  have hi0 : (i 0).val < 65536 := (i 0).isLt
  have hi1 : (i 1).val < 2 := (i 1).isLt
  have hN : cfg0.N = 64 := N_0
  have ht : (i 0).val / 1024 < cfg0.N := by rw [hN]; omega
  refine ⟨⟨(i 0).val / 1024, ht⟩, flush0_7 _, ?_⟩
  rw [mem_blk]
  obtain ⟨-, -, -, -, -, -, -, ⟨e0, e1⟩⟩ := idx_facts ⟨(i 0).val / 1024, ht⟩
  intro a
  match a with
  | ⟨0, _⟩ =>
    show win0_7.index ⟨(i 0).val / 1024, ht⟩ 0 * 1024 ≤ (i 0).val ∧ (i 0).val < win0_7.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win0_7.index ⟨(i 0).val / 1024, ht⟩ 1 * 2 ≤ (i 1).val ∧ (i 1).val < win0_7.index ⟨(i 0).val / 1024, ht⟩ 1 * 2 + 2
    rw [e1]; omega

/-- The result array after the run is the network of the argument arrays. -/
theorem final (c : Dev nD) : (dats m 0 c).arrAt 7 cfg0.N = result m c :=
  (dats m 0 c).arrAt_eq_of_cover 7 (result m c) (fun t _ => flushed_eq m c t) cover

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 7).trans (final m c),
      (((h c).1 0).trans ((dats m 0 c).arrAt_in 0 rfl _)).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.HandValue

end
-- ==== Proof.RefValue.lean ====
/-
  The reference program's result, read one operation at a time, is the split spelling of the network
  (`Spec.netSplit`) of the argument arrays.

  Layer one: entry `(r, l)` of the first pre-activation is
  `(delta r * w1 l + b1 l) + (phi r * (∑ e, sel r e * wm e l) + ∑ e, sel r e * bm e l)`, each factor a slice, a
  reshape or a broadcast of an argument read at the index it copies from. Then a maximum with the zero constant, a
  contraction with the transposed hidden-to-hidden weights plus the bias, a maximum with zero again, and the
  contraction with the transposed read-out weights plus its bias: `Spec.upper` of the first layer's row.
-/
import proofs.«134065_j20744692040155_2_alg».proof.Proof.Gen.ReferenceIdeal.Read
import proofs.«134065_j20744692040155_2_alg».proof.Proof.Spec

noncomputable section

namespace Cert.ReferenceIdeal.RefValue

open Cert.ReferenceIdeal Cert.ReferenceIdeal.Read Idealize.ShloMosaic Idealize.ShloMosaic.ValueIdx

variable (x0 : (⟨S65536x12, .f32⟩ : BufTy).Contents (Elt Ideal)) (x1 : (⟨S1024x1, .f32⟩ : BufTy).Contents (Elt Ideal))
  (x2 : (⟨S1024, .f32⟩ : BufTy).Contents (Elt Ideal)) (x3 x4 : (⟨S10x1024, .f32⟩ : BufTy).Contents (Elt Ideal))
  (x5 : (⟨S1024x1024, .f32⟩ : BufTy).Contents (Elt Ideal)) (x6 : (⟨S1024, .f32⟩ : BufTy).Contents (Elt Ideal))
  (x7 : (⟨S2x1024, .f32⟩ : BufTy).Contents (Elt Ideal)) (x8 : (⟨S2, .f32⟩ : BufTy).Contents (Elt Ideal))

/-! ## The first layer's factors at an index -/

/-- The slice of the first ten columns at `(r, e)` is the selection weight `sel r e`. -/
theorem v0_at (r : Fin 65536) (e : Fin 10) :
    val_main_v0 (F := Ideal) x0 (ix2 r e) = Cert.Spec.selOf x0 r e := by
  rw [val_main_v0_apply]
  unfold Cert.Spec.selOf
  exact congrArg x0 (funext fun a => Fin.ext (by match a with | ⟨0, _⟩ => rfl | ⟨1, _⟩ => rfl))

/-- Column 10 broadcast along the hidden axis is `delta r`. -/
theorem v5_at (r : Fin 65536) (l : Fin 1024) :
    val_main_v5 (F := Ideal) x0 (ix2 r l) = Cert.Spec.deltaOf x0 r := by
  rw [val_main_v5_apply, val_main_v1_apply]
  unfold Cert.Spec.deltaOf
  exact congrArg x0 (funext fun a => Fin.ext (by match a with | ⟨0, _⟩ => rfl | ⟨1, _⟩ => rfl))

/-- Column 11 broadcast along the hidden axis is `phi r`. -/
theorem v12_at (r : Fin 65536) (l : Fin 1024) :
    val_main_v12 (F := Ideal) x0 (ix2 r l) = Cert.Spec.phiOf x0 r := by
  rw [val_main_v12_apply, val_main_v2_apply]
  unfold Cert.Spec.phiOf
  exact congrArg x0 (funext fun a => Fin.ext (by match a with | ⟨0, _⟩ => rfl | ⟨1, _⟩ => rfl))

/-- The column of first-layer weights, flattened and broadcast along the rows, is `w1 l`. -/
theorem v6_at (r : Fin 65536) (l : Fin 1024) :
    val_main_v6 (F := Ideal) x1 (ix2 r l) = x1 (ix2 l (0 : Fin 1)) := by
  rw [val_main_v6_apply, val_main_v4_apply, val_main_v3_apply]
  exact congrArg x1 (funext fun a => Fin.ext (by match a with | ⟨0, _⟩ => exact Nat.div_one _ | ⟨1, _⟩ => rfl))

/-- The first bias broadcast along the rows is `b1 l`. -/
theorem v9_at (r : Fin 65536) (l : Fin 1024) :
    val_main_v9 (F := Ideal) x2 (ix2 r l) = x2 (ix1 l) := by
  rw [val_main_v9_apply, val_main_v8_apply]
  exact congrArg x2 (funext fun a => Fin.ext (by match a with | ⟨0, _⟩ => rfl))

/-- The selection weights contracted with the rows of `wm`. -/
theorem v11_at (r : Fin 65536) (l : Fin 1024) :
    val_main_v11 (F := Ideal) x0 x3 (ix2 r l) = ∑ e : Fin 10, Cert.Spec.selOf x0 r e * x3 (ix2 e l) := by
  rw [val_main_v11_apply]
  refine Finset.sum_congr rfl fun e _ => ?_
  have hl : lidx_main_v11 (ix2 r l) e = ix2 r e := (funext fun a => Fin.ext (by match a with | ⟨0, _⟩ => rfl | ⟨1, _⟩ => rfl))
  have hr : ridx_main_v11 (ix2 r l) e = ix2 e l := (funext fun a => Fin.ext (by match a with | ⟨0, _⟩ => rfl | ⟨1, _⟩ => rfl))
  rw [hl, hr, v0_at]

/-- The selection weights contracted with the rows of `bm`. -/
theorem v14_at (r : Fin 65536) (l : Fin 1024) :
    val_main_v14 (F := Ideal) x0 x4 (ix2 r l) = ∑ e : Fin 10, Cert.Spec.selOf x0 r e * x4 (ix2 e l) := by
  rw [val_main_v14_apply]
  refine Finset.sum_congr rfl fun e _ => ?_
  have hl : lidx_main_v14 (ix2 r l) e = ix2 r e := (funext fun a => Fin.ext (by match a with | ⟨0, _⟩ => rfl | ⟨1, _⟩ => rfl))
  have hr : ridx_main_v14 (ix2 r l) e = ix2 e l := (funext fun a => Fin.ext (by match a with | ⟨0, _⟩ => rfl | ⟨1, _⟩ => rfl))
  rw [hl, hr, v0_at]

/-! ## The first layer -/

/-- The first pre-activation at `(r, l)`, in the reference's spelling. -/
theorem v16_at (r : Fin 65536) (l : Fin 1024) :
    val_main_v16 (F := Ideal) x0 x1 x2 x3 x4 (ix2 r l) = Cert.Spec.pre1SplitOf x0 x1 x2 x3 x4 r l := by
  rw [val_main_v16_apply, val_main_v10_apply, val_main_v7_apply, val_main_v15_apply, val_main_v13_apply,
    v5_at, v6_at, v9_at, v12_at, v11_at, v14_at]
  rfl

/-- The zero the first maximum compares against. -/
theorem zero0_at (i : S65536x1024.Idx) : val_main_call0_v0 (F := Ideal) i = (0 : EReal) := by
  rw [val_main_call0_v0_apply, val_main_call0_cst_apply]
  exact Ideal.ofBits_zero_f32

/-- The first activation: the maximum of the pre-activation and zero. -/
theorem v17_at (r : Fin 65536) (l : Fin 1024) :
    val_main_v17 (F := Ideal) x0 x1 x2 x3 x4 (ix2 r l) = max (Cert.Spec.pre1SplitOf x0 x1 x2 x3 x4 r l) 0 := by
  rw [val_main_v17_apply, v16_at, zero0_at]
  rfl

/-! ## The second layer -/

/-- The transposed hidden-to-hidden weights at `(l, k)` are the argument's at `(k, l)`. -/
theorem v18_at (l k : Fin 1024) : val_main_v18 (F := Ideal) x5 (ix2 l k) = x5 (ix2 k l) := by
  rw [val_main_v18_apply]
  exact congrArg x5 (funext fun a => Fin.ext (by match a with | ⟨0, _⟩ => rfl | ⟨1, _⟩ => rfl))

/-- The contraction of the first activations with the hidden-to-hidden weights. -/
theorem v19_at (r : Fin 65536) (k : Fin 1024) :
    val_main_v19 (F := Ideal) x0 x1 x2 x3 x4 x5 (ix2 r k)
      = ∑ l : Fin 1024, max (Cert.Spec.pre1SplitOf x0 x1 x2 x3 x4 r l) 0 * x5 (ix2 k l) := by
  rw [val_main_v19_apply]
  refine Finset.sum_congr rfl fun l _ => ?_
  have hl : lidx_main_v19 (ix2 r k) l = ix2 r l := (funext fun a => Fin.ext (by match a with | ⟨0, _⟩ => rfl | ⟨1, _⟩ => rfl))
  have hr : ridx_main_v19 (ix2 r k) l = ix2 l k := (funext fun a => Fin.ext (by match a with | ⟨0, _⟩ => rfl | ⟨1, _⟩ => rfl))
  rw [hl, hr, v17_at, v18_at]

/-- The second bias broadcast along the rows is `b2 k`. -/
theorem v21_at (r : Fin 65536) (k : Fin 1024) :
    val_main_v21 (F := Ideal) x6 (ix2 r k) = x6 (ix1 k) := by
  rw [val_main_v21_apply, val_main_v20_apply]
  exact congrArg x6 (funext fun a => Fin.ext (by match a with | ⟨0, _⟩ => rfl))

/-- The zero the second maximum compares against. -/
theorem zero1_at (i : S65536x1024.Idx) : val_main_call1_v0 (F := Ideal) i = (0 : EReal) := by
  rw [val_main_call1_v0_apply, val_main_call1_cst_apply]
  exact Ideal.ofBits_zero_f32

/-- The second activation. -/
theorem v23_at (r : Fin 65536) (k : Fin 1024) :
    val_main_v23 (F := Ideal) x0 x1 x2 x3 x4 x5 x6 (ix2 r k)
      = max ((∑ l : Fin 1024, max (Cert.Spec.pre1SplitOf x0 x1 x2 x3 x4 r l) 0 * x5 (ix2 k l)) + x6 (ix1 k)) 0 := by
  rw [val_main_v23_apply, val_main_v22_apply, v19_at, v21_at, zero1_at]
  rfl

/-! ## The read-out -/

/-- The transposed read-out weights at `(k, j)` are the argument's at `(j, k)`. -/
theorem v24_at (k : Fin 1024) (j : Fin 2) : val_main_v24 (F := Ideal) x7 (ix2 k j) = x7 (ix2 j k) := by
  rw [val_main_v24_apply]
  exact congrArg x7 (funext fun a => Fin.ext (by match a with | ⟨0, _⟩ => rfl | ⟨1, _⟩ => rfl))

/-- The read-out bias broadcast along the rows is `b3 j`. -/
theorem v27_at (r : Fin 65536) (j : Fin 2) :
    val_main_v27 (F := Ideal) x8 (ix2 r j) = x8 (ix1 j) := by
  rw [val_main_v27_apply, val_main_v26_apply]
  exact congrArg x8 (funext fun a => Fin.ext (by match a with | ⟨0, _⟩ => rfl))

/-- The contraction of the second activations with the read-out weights. -/
theorem v25_at (r : Fin 65536) (j : Fin 2) :
    val_main_v25 (F := Ideal) x0 x1 x2 x3 x4 x5 x6 x7 (ix2 r j)
      = ∑ k : Fin 1024,
          max ((∑ l : Fin 1024, max (Cert.Spec.pre1SplitOf x0 x1 x2 x3 x4 r l) 0 * x5 (ix2 k l)) + x6 (ix1 k)) 0
            * x7 (ix2 j k) := by
  rw [val_main_v25_apply]
  refine Finset.sum_congr rfl fun k _ => ?_
  have hl : lidx_main_v25 (ix2 r j) k = ix2 r k := (funext fun a => Fin.ext (by match a with | ⟨0, _⟩ => rfl | ⟨1, _⟩ => rfl))
  have hr : ridx_main_v25 (ix2 r j) k = ix2 k j := (funext fun a => Fin.ext (by match a with | ⟨0, _⟩ => rfl | ⟨1, _⟩ => rfl))
  rw [hl, hr, v23_at, v24_at]

/-! ## The whole program -/

/-- The reference's result is the network, in the split spelling, of the argument arrays. -/
theorem ref_eq (x0 : (⟨S65536x12, .f32⟩ : BufTy).Contents (Elt Ideal)) (x1 : (⟨S1024x1, .f32⟩ : BufTy).Contents (Elt Ideal)) (x2 : (⟨S1024, .f32⟩ : BufTy).Contents (Elt Ideal)) (x3 x4 : (⟨S10x1024, .f32⟩ : BufTy).Contents (Elt Ideal)) (x5 : (⟨S1024x1024, .f32⟩ : BufTy).Contents (Elt Ideal)) (x6 : (⟨S1024, .f32⟩ : BufTy).Contents (Elt Ideal)) (x7 : (⟨S2x1024, .f32⟩ : BufTy).Contents (Elt Ideal)) (x8 : (⟨S2, .f32⟩ : BufTy).Contents (Elt Ideal)) :
    Cert.ReferenceIdeal.Read.val_main_v28 (F := Ideal) x0 x1 x2 x3 x4 x5 x6 x7 x8 = Cert.Spec.netSplit x0 x1 x2 x3 x4 x5 x6 x7 x8 := by
  funext i
  obtain ⟨r, j, rfl⟩ : ∃ (r : Fin 65536) (j : Fin 2), i = ix2 r j := ⟨i 0, i 1, eq_ix2 i⟩
  rw [val_main_v28_apply, v25_at, v27_at]
  rfl

end Cert.ReferenceIdeal.RefValue

end
-- ==== Proof.SpecLaw.lean ====
/-
  The fused contraction of length 21 and the reference's split sum agree on real inputs.

  The sum over the 21 fused positions is the sum of its first ten terms, its next ten, and its last one; this
  is plain reassociation and holds for any extended reals. The only step that needs real numbers is pulling
  `phi` out of the first block, `∑ e, (phi * sel e) * wm e l = phi * ∑ e, sel e * wm e l`, since multiplication
  does not distribute over addition at the infinities. The whole-network statement is the first-layer one under
  the common upper layers.
-/
import proofs.«134065_j20744692040155_2_alg».proof.Proof.Spec
import Mathlib.Algebra.BigOperators.Fin
import Mathlib.Data.EReal.Operations
import Mathlib.Tactic.Ring

noncomputable section

namespace Cert.Spec

open Idealize.ShloMosaic Idealize.ShloMosaic.ValueIdx

/-- The coercion from the reals commutes with finite sums. -/
private theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 21 positions is the first ten terms, the next ten, and the last. -/
private theorem sum21 (f : Fin 21 → EReal) :
    ∑ q : Fin 21, f q
      = (∑ e : Fin 10, f ⟨e.val, by have := e.isLt; omega⟩)
        + (∑ e : Fin 10, f ⟨10 + e.val, by have := e.isLt; omega⟩) + f ⟨20, by omega⟩ := by
  have h1 := Fin.sum_univ_castSucc (n := 20) f
  have h2 := Fin.sum_univ_add (a := 10) (b := 10) (fun i : Fin 20 => f (Fin.castSucc i))
  rw [h1, h2]
  rfl

private theorem fusedL_lo (sel : Fin 10 → EReal) (delta phi : EReal) (e : Fin 10) (h : e.val < 21) :
    fusedL sel delta phi ⟨e.val, h⟩ = phi * sel e := by
  unfold fusedL
  rw [dif_pos (show e.val < 10 from e.isLt)]

private theorem fusedL_mid (sel : Fin 10 → EReal) (delta phi : EReal) (e : Fin 10) (h : 10 + e.val < 21) :
    fusedL sel delta phi ⟨10 + e.val, h⟩ = sel e := by
  unfold fusedL
  rw [dif_neg (show ¬ (10 + e.val < 10) by omega),
    dif_pos (show 10 + e.val < 20 by have := e.isLt; omega)]
  congr 1
  apply Fin.ext
  show 10 + e.val - 10 = e.val
  omega

private theorem fusedL_hi (sel : Fin 10 → EReal) (delta phi : EReal) (h : 20 < 21) :
    fusedL sel delta phi ⟨20, h⟩ = delta := by
  unfold fusedL
  rw [dif_neg (show ¬ (20 < 10) by omega), dif_neg (show ¬ (20 < 20) by omega)]

private theorem fusedR_lo (wm bm : Fin 10 → Fin 1024 → EReal) (w1 : Fin 1024 → EReal) (l : Fin 1024)
    (e : Fin 10) (h : e.val < 21) : fusedR wm bm w1 ⟨e.val, h⟩ l = wm e l := by
  unfold fusedR
  rw [dif_pos (show e.val < 10 from e.isLt)]

private theorem fusedR_mid (wm bm : Fin 10 → Fin 1024 → EReal) (w1 : Fin 1024 → EReal) (l : Fin 1024)
    (e : Fin 10) (h : 10 + e.val < 21) : fusedR wm bm w1 ⟨10 + e.val, h⟩ l = bm e l := by
  unfold fusedR
  rw [dif_neg (show ¬ (10 + e.val < 10) by omega),
    dif_pos (show 10 + e.val < 20 by have := e.isLt; omega)]
  have hidx : (⟨10 + e.val - 10, by have := e.isLt; omega⟩ : Fin 10) = e := Fin.ext (by show 10 + e.val - 10 = e.val; omega)
  exact congrArg (fun i => bm i l) hidx

private theorem fusedR_hi (wm bm : Fin 10 → Fin 1024 → EReal) (w1 : Fin 1024 → EReal) (l : Fin 1024)
    (h : 20 < 21) : fusedR wm bm w1 ⟨20, h⟩ l = w1 l := by
  unfold fusedR
  rw [dif_neg (show ¬ (20 < 10) by omega), dif_neg (show ¬ (20 < 20) by omega)]

theorem pre1_fused_eq (sel : Fin 10 → EReal) (delta phi : EReal) (wm bm : Fin 10 → Fin 1024 → EReal)
    (w1 b1 : Fin 1024 → EReal) (l : Fin 1024)
    (hsel : ∀ e, ∃ r : ℝ, sel e = (r : EReal)) (hdelta : ∃ r : ℝ, delta = (r : EReal))
    (hphi : ∃ r : ℝ, phi = (r : EReal))
    (hwm : ∀ e, ∃ r : ℝ, wm e l = (r : EReal)) (hbm : ∀ e, ∃ r : ℝ, bm e l = (r : EReal))
    (hw1 : ∃ r : ℝ, w1 l = (r : EReal)) (hb1 : ∃ r : ℝ, b1 l = (r : EReal)) :
    pre1Fused sel delta phi wm bm w1 b1 l = pre1Split sel delta phi wm bm w1 b1 l := by
  obtain ⟨d, hd⟩ := hdelta
  obtain ⟨p, hp⟩ := hphi
  choose s hs using hsel
  choose a ha using hwm
  choose b hb using hbm
  obtain ⟨w, hw⟩ := hw1
  obtain ⟨c, hc⟩ := hb1
  unfold pre1Fused pre1Split
  rw [sum21]
  simp only [fusedL_lo, fusedL_mid, fusedL_hi, fusedR_lo, fusedR_mid, fusedR_hi]
  simp only [hs, ha, hb, hw, hc, hd, hp]
  simp only [← EReal.coe_mul, ← coe_sum_real, ← EReal.coe_add]
  congr 1
  rw [Finset.mul_sum]
  simp only [mul_assoc]
  ring

theorem netFused_eq_netSplit (X : Sx.Idx → EReal) (W1 : Sw1.Idx → EReal) (B1 : Sb.Idx → EReal)
    (Wm Bm : Sm.Idx → EReal) (W2 : Sw2.Idx → EReal)
    (B2 : Sb.Idx → EReal) (W3 : Sw3.Idx → EReal) (B3 : Sb3.Idx → EReal)
    (hX : ∀ i, ∃ r : ℝ, X i = (r : EReal)) (hW1 : ∀ i, ∃ r : ℝ, W1 i = (r : EReal))
    (hB1 : ∀ i, ∃ r : ℝ, B1 i = (r : EReal))
    (hWm : ∀ i, ∃ r : ℝ, Wm i = (r : EReal)) (hBm : ∀ i, ∃ r : ℝ, Bm i = (r : EReal)) :
    netFused X W1 B1 Wm Bm W2 B2 W3 B3 = netSplit X W1 B1 Wm Bm W2 B2 W3 B3 := by
  unfold netFused netSplit
  have h : pre1FusedOf X W1 B1 Wm Bm = pre1SplitOf X W1 B1 Wm Bm := by
    funext r l
    unfold pre1FusedOf pre1SplitOf
    exact pre1_fused_eq _ _ _ _ _ _ _ l (fun e => hX _) (hX _) (hX _) (fun e => hWm _) (fun e => hBm _)
      (hW1 _) (hB1 _)
  rw [h]

end Cert.Spec

end
-- ==== Proof.FiniteInputs.lean ====
/-
  From the printed precondition "every entry of every array is finite" to "every entry is a real number":
  the predicate and-s nine flags, one per array, each the and-reduction over all entries of |x| < +∞;
  an extended real with max x (-x) < ⊤ is neither ⊥ nor ⊤, hence the coercion of a real.
-/
import proofs.«134065_j20744692040155_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx Cert.Pre_finite_inputs

/-- The rank-0 shape has a single index. -/
instance : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max x (-x) is below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One flag of the predicate: if the and-reduction over all entries of |x| < +∞ is 1, every entry of x is real. -/
theorem real_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := fun i =>
  real_of_abs_lt_top (x i) (Host.reduce_andi_all _ _ hr hu ix0 e i)

theorem real_of_pre [Cert.Pre_finite_inputs.Facts] (x0 : FVec Ideal Cert.Pre_finite_inputs.S65536x12 .f32) (x1 : FVec Ideal Cert.Pre_finite_inputs.S1024x1 .f32) (x2 : FVec Ideal Cert.Pre_finite_inputs.S1024 .f32) (x3 x4 : FVec Ideal Cert.Pre_finite_inputs.S10x1024 .f32) (x5 : FVec Ideal Cert.Pre_finite_inputs.S1024x1024 .f32) (x6 : FVec Ideal Cert.Pre_finite_inputs.S1024 .f32) (x7 : FVec Ideal Cert.Pre_finite_inputs.S2x1024 .f32) (x8 : FVec Ideal Cert.Pre_finite_inputs.S2 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1, Cert.Pre_finite_inputs.fn_part2] at h0
  obtain ⟨h7, -⟩ := IntOp.andi_eq_one.1 h0
  obtain ⟨h6, -⟩ := IntOp.andi_eq_one.1 h7
  obtain ⟨h5, -⟩ := IntOp.andi_eq_one.1 h6
  obtain ⟨h4, -⟩ := IntOp.andi_eq_one.1 h5
  obtain ⟨h3, f4⟩ := IntOp.andi_eq_one.1 h4
  obtain ⟨h2, f3⟩ := IntOp.andi_eq_one.1 h3
  obtain ⟨h1, f2⟩ := IntOp.andi_eq_one.1 h2
  obtain ⟨f0, f1⟩ := IntOp.andi_eq_one.1 h1
  exact ⟨real_of_all _ _ _ x0 f0, real_of_all _ _ _ x1 f1, real_of_all _ _ _ x2 f2,
    real_of_all _ _ _ x3 f3, real_of_all _ _ _ x4 f4⟩

end Cert.FiniteInputs
-- ==== Proof.lean ====
/-
  The certificate: a Pallas kernel for a three-layer network with a one-hot-weighted expert mix in its first
  layer, against its jnp reference, over the extended reals.

  Both programs compute, for each of the 65536 rows of the input (ten selection weights `sel`, then `delta`,
  then `phi`), `relu` of a first pre-activation, a hidden layer with `relu`, and a two-unit read-out. They
  differ only in the first pre-activation: the kernel contracts one fused product of length 21,
  `[phi · sel, sel, delta] · [Wmeta; bmeta; W1ᵀ]`, and adds `b1`; the reference adds `delta · W1 + b1` to
  `phi · (sel · Wmeta) + sel · bmeta`. Pulling `phi` out of the sum is distributivity, which holds on the
  reals and fails at the infinities, so the equality of the two results uses the precondition that the inputs
  are finite — of the first five arrays only; the layers above are the same function of the first layer on both
  sides. Changes of float format are the identity on extended reals, a matrix product into a zero accumulator
  is the plain sum, and the tiling into 64 row blocks does not show in the result.

  The frames of the two kernel programs are the launch theorem for a pipelined region whose body keeps nothing
  between grid points, from the body's triple (Proof/KernelFrame.lean, Proof/KernelIdealFrame.lean: one text at
  either instance); the reference's frame is its run with the result dropped. The idealization rewrote nothing,
  so `preserves` is trivial.
-/
import proofs.«134065_j20744692040155_2_alg».proof.Defs
import proofs.«134065_j20744692040155_2_alg».proof.Proof.Gen.Kernel
import proofs.«134065_j20744692040155_2_alg».proof.Proof.Gen.KernelIdeal
import proofs.«134065_j20744692040155_2_alg».proof.Proof.Gen.ReferenceIdeal
import proofs.«134065_j20744692040155_2_alg».proof.Proof.Gen.Pre_finite_inputs
import proofs.«134065_j20744692040155_2_alg».proof.Proof.Gen.ReferenceIdeal.Run
import proofs.«134065_j20744692040155_2_alg».proof.Proof.KernelFrame
import proofs.«134065_j20744692040155_2_alg».proof.Proof.KernelIdealFrame
import proofs.«134065_j20744692040155_2_alg».proof.Proof.KernelValue
import proofs.«134065_j20744692040155_2_alg».proof.Proof.RefValue
import proofs.«134065_j20744692040155_2_alg».proof.Proof.SpecLaw
import proofs.«134065_j20744692040155_2_alg».proof.Proof.FiniteInputs

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- The kernel's result array ends at the network of its arguments in the fused spelling, the reference's at the
    network of ITS arguments in the split spelling; the arguments agree, the first five arrays hold real numbers by
    the precondition, and on real numbers the two spellings are one function. -/
theorem algebraic : Cert.algebraic_KernelIdeal_ReferenceIdeal := by
  intro m ρ m' ρ' hpre hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _ _ _ _ _ _ _).trans ?_
  rw [Cert.ReferenceIdeal.RefValue.ref_eq]
  obtain ⟨a0, a1, a2, a3, a4, a5, a6, a7, a8⟩ := hagree c
  rw [a0, a1, a2, a3, a4, a5, a6, a7, a8]
  obtain ⟨f0, f1, f2, f3, f4⟩ := Cert.FiniteInputs.real_of_pre _ _ _ _ _ _ _ _ _ (hpre c)
  exact (Cert.Spec.netFused_eq_netSplit _ _ _ _ _ _ _ _ _ f0 f1 f2 f3 f4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
